-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S2x800000 : Shape := ⟨2, ![2, 800000]⟩
abbrev S50000 : Shape := ⟨1, ![50000]⟩
abbrev S32x64 : Shape := ⟨2, ![32, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg9 : FVec F S64x64 .f32) (main_arg10 : FVec F S64 .f32) (main_arg11 : FVec F S64x2 .f32) (main_arg12 : FVec F S2 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x2 .f32 := Host.absf main_arg11
  let main_cst_16 : FVec F S_ .f32 := constant S_ .f32 0x7F800000#32
  let main_v45 : FVec F S64x2 .f32 := broadcastInDim S64x2 ![] bcast_S_S64x2 main_cst_16
  let main_v46 : IVec S64x2 1 := cmpf .olt main_v44 main_v45
  let main_c_17 : IVec S_ 1 := constantI S_ 1 1#1
  let main_v47 : IVec S_ 1 := (fun x v => Host.reduce IntOp.andi x v reducesTo_S64x2_S_d0_1 h_S_) main_v46 main_c_17
  let main_v48 : IVec S_ 1 := andi main_v43 main_v47
  let main_v49 : FVec F S2 .f32 := Host.absf main_arg12
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_arg11 : FVec F S64x2 .f32) (main_arg12 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x32 .f32) (main_arg1 : IVec S2x800000 32) (main_arg2 : IVec S50000 32) (main_arg3 : FVec F S32x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x2 .f32) (main_arg12 : FVec F S2 .f32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S32x64 .f32 := Host.absf main_arg3
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S50000x32 : Shape := ⟨2, ![50000, 32]⟩
abbrev S2x800000 : Shape := ⟨2, ![2, 800000]⟩
abbrev S50000 : Shape := ⟨1, ![50000]⟩
abbrev S32x64 : Shape := ⟨2, ![32, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S5000x32 : Shape := ⟨2, ![5000, 32]⟩
abbrev S5000x64 : Shape := ⟨2, ![5000, 64]⟩
abbrev S850000x64 : Shape := ⟨2, ![850000, 64]⟩
abbrev S1x64 : Shape := ⟨2, ![1, 64]⟩
abbrev S2048x64 : Shape := ⟨2, ![2048, 64]⟩
abbrev S50000x1 : Shape := ⟨2, ![50000, 1]⟩
abbrev S2048 : Shape := ⟨1, ![2048]⟩
abbrev S2048x1 : Shape := ⟨2, ![2048, 1]⟩
abbrev S1x2 : Shape := ⟨2, ![1, 2]⟩
abbrev S2048x2 : Shape := ⟨2, ![2048, 2]⟩

abbrev nBuf : Space → Nat
  | .hbm => 129
  | .vmem => 36
  | .smem => 0
  | _ => 0

abbrev hbmTy0_0 (i : Nat) : BufTy := match i % 128 with
  | 0 => ⟨S50000x32, .f32⟩
  | 1 => ⟨S2x800000, .i32⟩
  | 2 => ⟨S50000, .i32⟩
  | 3 => ⟨S32x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x2, .f32⟩
  | 12 => ⟨S2, .f32⟩
  | 13 => ⟨S50000, .i32⟩
  | 14 => ⟨S1x800000, .i32⟩
  | 15 => ⟨S800000, .i32⟩
  | 16 => ⟨S850000, .i32⟩
  | 17 => ⟨S1x800000, .i32⟩
  | 18 => ⟨S800000, .i32⟩
  | 19 => ⟨S850000, .i32⟩
  | 20 => ⟨S_, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .i1⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S50000x64, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x64, .f32⟩
  | 63 => ⟨S850000x1, .f32⟩
  | 64 => ⟨S850000x64, .f32⟩
  | 65 => ⟨S850000x64, .f32⟩
  | 66 => ⟨S_, .f32⟩
  | 67 => ⟨S50000x64, .f32⟩
  | 68 => ⟨S850000x1, .i32⟩
  | 69 => ⟨S50000x64, .f32⟩
  | 70 => ⟨S1x64, .f32⟩
  | 71 => ⟨S50000x64, .f32⟩
  | 72 => ⟨S50000x64, .f32⟩
  | 73 => ⟨S_, .i32⟩
  | 74 => ⟨S850000, .i32⟩
  | 75 => ⟨S850000, .i1⟩
  | 76 => ⟨S_, .i32⟩
  | 77 => ⟨S850000, .i32⟩
  | 78 => ⟨S850000, .i32⟩
  | 79 => ⟨S850000, .i32⟩
  | 80 => ⟨S850000x1, .i32⟩
  | 81 => ⟨S850000x64, .f32⟩
  | 82 => ⟨S850000x1, .f32⟩
  | 83 => ⟨S850000x64, .f32⟩
  | 84 => ⟨S850000x64, .f32⟩
  | 85 => ⟨S_, .f32⟩
  | 86 => ⟨S50000x64, .f32⟩
  | 87 => ⟨S850000x1, .i32⟩
  | 88 => ⟨S50000x64, .f32⟩
  | 89 => ⟨S1x64, .f32⟩
  | 90 => ⟨S50000x64, .f32⟩
  | 91 => ⟨S50000x64, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000x64, .f32⟩
  | 101 => ⟨S850000x1, .f32⟩
  | 102 => ⟨S850000x64, .f32⟩
  | 103 => ⟨S850000x64, .f32⟩
  | 104 => ⟨S_, .f32⟩
  | 105 => ⟨S50000x64, .f32⟩
  | 106 => ⟨S850000x1, .i32⟩
  | 107 => ⟨S50000x64, .f32⟩
  | 108 => ⟨S1x64, .f32⟩
  | 109 => ⟨S50000x64, .f32⟩
  | 110 => ⟨S_, .f32⟩
  | 111 => ⟨S2048x64, .f32⟩
  | 112 => ⟨S50000x1, .i32⟩
  | 113 => ⟨S2048x64, .f32⟩
  | 114 => ⟨S_, .f32⟩
  | 115 => ⟨S50000, .f32⟩
  | 116 => ⟨S_, .f32⟩
  | 117 => ⟨S2048, .f32⟩
  | 118 => ⟨S50000x1, .i32⟩
  | 119 => ⟨S2048, .f32⟩
  | 120 => ⟨S_, .f32⟩
  | 121 => ⟨S2048, .f32⟩
  | 122 => ⟨S2048, .f32⟩
  | 123 => ⟨S2048x1, .f32⟩
  | 124 => ⟨S2048x64, .f32⟩
  | 125 => ⟨S2048x64, .f32⟩
  | 126 => ⟨S1x64, .f32⟩
  | 127 => ⟨S1x2, .f32⟩
  | _ => ⟨S50000x32, .f32⟩

abbrev hbmTy0_1 (i : Nat) : BufTy := match i % 128 with
  | 0 => ⟨S2048x2, .f32⟩
  | _ => ⟨S50000x32, .f32⟩

abbrev hbmTy (i : Nat) : BufTy := match i / 128 with
  | 0 => hbmTy0_0 i
  | 1 => hbmTy0_1 i
  | _ => ⟨S50000x32, .f32⟩

abbrev bufTy : (tb : Table) → Fin (tcTables nBuf tb) → BufTy
  | .hbm, ⟨i, _⟩ => hbmTy i
  | .local _ .vmem, ⟨0, _⟩ => ⟨S5000x32, .f32⟩
  | .local _ .vmem, ⟨1, _⟩ => ⟨S5000x32, .f32⟩
  | .local _ .vmem, ⟨2, _⟩ => ⟨S32x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S2048x64, .f32⟩
  | .local _ .vmem, ⟨31, _⟩ => ⟨S64x64, .f32⟩
  | .local _ .vmem, ⟨32, _⟩ => ⟨S1x64, .f32⟩
  | .local _ .vmem, ⟨33, _⟩ => ⟨S64x2, .f32⟩
  | .local _ .vmem, ⟨34, _⟩ => ⟨S1x2, .f32⟩
  | .local _ .vmem, ⟨35, _⟩ => ⟨S2048x2, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_9 : Ref sig .tc := ⟨.hbm, 73, rfl⟩
abbrev main_v47 : Ref sig .tc := ⟨.hbm, 74, rfl⟩
abbrev main_v48 : Ref sig .tc := ⟨.hbm, 75, rfl⟩
abbrev main_c_10 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_11 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_12 : Ref sig .tc := ⟨.hbm, 92, rfl⟩
abbrev main_v63 : Ref sig .tc := ⟨.hbm, 93, rfl⟩
abbrev main_v64 : Ref sig .tc := ⟨.hbm, 94, rfl⟩
abbrev main_c_13 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_14 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_15 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_16 : Ref sig .tc := ⟨.hbm, 114, rfl⟩
abbrev main_v81 : Ref sig .tc := ⟨.hbm, 115, rfl⟩
abbrev main_cst_17 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_18 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg3_0 : Ref sig .tc := ⟨.vmem, 33, rfl⟩
abbrev cc6_stg4_0 : Ref sig .tc := ⟨.vmem, 34, rfl⟩
abbrev cc6_stg5_0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem1_0 : DmaSem sig := 31
abbrev cc6_sem2_0 : DmaSem sig := 32
abbrev cc6_sem3_0 : DmaSem sig := 33
abbrev cc6_sem4_0 : DmaSem sig := 34
abbrev cc6_sem5_0 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S2048x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x2 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x2 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S2048x2 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  bcast_S_S2048x64 : S_.BroadcastsInDim S2048x64 (![] : Fin 0 → Fin S2048x64.rank)
  bcast_S50000_S50000x1_0 : S50000.BroadcastsInDim S50000x1 (![0] : Fin 1 → Fin S50000x1.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  shapeCasts_S2_S1x2 : S2.ShapeCasts S1x2
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  broadcasts_S1x64_S2048x64 : S1x64.Broadcasts S2048x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2048x2 : S1x2.Broadcasts S2048x2
  inb_S2048x2_S2048x2_0_0 : ∀ a, (![0, 0] : Fin 2 → Nat) a + S2048x2.size a ≤ S2048x2.size a
  h_S2048x2 : 0 < S2048x2.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x32_S32x64_S5000x64_1_0_0_1_n_n_wf : DotDims.WF S5000x32 S32x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x64_S5000x64_1_0_0_1_n_n_wf : DotDims.WF S5000x64 S64x64 S5000x64 [1] [0] [0] [1] [] []
  scatter_S2048x64_S50000x1_S50000x64_1_0_0_1_wf : ScatterDims.WF S2048x64 S50000x1 S50000x64 [1] [0] [0] 1
  scatter_S2048_S50000x1_S50000_n_0_0_1_wf : ScatterDims.WF S2048 S50000x1 S50000 [] [0] [0] 1
  dot_S2048x64_S64x64_S2048x64_1_0_0_1_n_n_wf : DotDims.WF S2048x64 S64x64 S2048x64 [1] [0] [0] [1] [] []
  dot_S2048x64_S64x2_S2048x2_1_0_0_1_n_n_wf : DotDims.WF S2048x64 S64x2 S2048x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S50000x32.size a
  hwx0_0 : ∀ i : grid0.Coords, EltTy.bits .f32 = 32 ∨ (Rect.block (s := S50000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S2048x64.size a ≤ S2048x64.size a
  hwx6_0 : ∀ i : grid6.Coords, EltTy.bits .f32 = 32 ∨ (Rect.block (s := S2048x64) S2048x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x2.size a ≤ S64x2.size a
  hwx6_3 : ∀ i : grid6.Coords, EltTy.bits .f32 = 32 ∨ (Rect.block (s := S64x2) S64x2.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x2.size a ≤ S1x2.size a
  hwx6_4 : ∀ i : grid6.Coords, EltTy.bits .f32 = 32 ∨ (Rect.block (s := S1x2) S1x2.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S2048x2.size a ≤ S2048x2.size a
  hwx6_5 : ∀ i : grid6.Coords, EltTy.bits .f32 = 32 ∨ (Rect.block (s := S2048x2) S2048x2.size (cc6_transform_5 i) (hinb6_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S2048x64_S50000x1_S50000x64_1_0_0_1 : ScatterDims S2048x64 S50000x1 S50000x64 where
  updateWindowDims := [1]
  insertedWindowDims := [0]
  scatterDimsToOperandDims := [0]
  indexVectorDim := 1
  wf := scatter_S2048x64_S50000x1_S50000x64_1_0_0_1_wf
def scatter_S2048_S50000x1_S50000_n_0_0_1 : ScatterDims S2048 S50000x1 S50000 where
  updateWindowDims := []
  insertedWindowDims := [0]
  scatterDimsToOperandDims := [0]
  indexVectorDim := 1
  wf := scatter_S2048_S50000x1_S50000_n_0_0_1_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x2_S2048x2_1_0_0_1_n_n : DotDims S2048x64 S64x2 S2048x2 where
  lhsContracting := [1]
  rhsContracting := [0]
  lhsNonContracting := [0]
  rhsNonContracting := [1]
  lhsBatch := []
  rhsBatch := []
  wf := dot_S2048x64_S64x2_S2048x2_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v89) S2048x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v90) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg11) S64x2.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v91) S1x2.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v92) S2048x2.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x32 : Shape := ⟨2, ![50000, 32]⟩
abbrev S2x800000 : Shape := ⟨2, ![2, 800000]⟩
abbrev S50000 : Shape := ⟨1, ![50000]⟩
abbrev S32x64 : Shape := ⟨2, ![32, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S2048x64 : Shape := ⟨2, ![2048, 64]⟩
abbrev S50000x1 : Shape := ⟨2, ![50000, 1]⟩
abbrev S2048 : Shape := ⟨1, ![2048]⟩
abbrev S2048x1 : Shape := ⟨2, ![2048, 1]⟩
abbrev S2048x2 : Shape := ⟨2, ![2048, 2]⟩
abbrev S1x2 : Shape := ⟨2, ![1, 2]⟩

abbrev nBuf : Space → Nat
  | .hbm => 149
  | .vmem => 0
  | .smem => 0
  | _ => 0

abbrev hbmTy0_0 (i : Nat) : BufTy := match i % 128 with
  | 0 => ⟨S50000x32, .f32⟩
  | 1 => ⟨S2x800000, .i32⟩
  | 2 => ⟨S50000, .i32⟩
  | 3 => ⟨S32x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x2, .f32⟩
  | 12 => ⟨S2, .f32⟩
  | 13 => ⟨S50000, .i32⟩
  | 14 => ⟨S1x800000, .i32⟩
  | 15 => ⟨S800000, .i32⟩
  | 16 => ⟨S850000, .i32⟩
  | 17 => ⟨S1x800000, .i32⟩
  | 18 => ⟨S800000, .i32⟩
  | 19 => ⟨S850000, .i32⟩
  | 20 => ⟨S_, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .i1⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S50000x64, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x64, .f32⟩
  | 63 => ⟨S850000x1, .f32⟩
  | 64 => ⟨S850000x64, .f32⟩
  | 65 => ⟨S850000x64, .f32⟩
  | 66 => ⟨S_, .f32⟩
  | 67 => ⟨S50000x64, .f32⟩
  | 68 => ⟨S850000x1, .i32⟩
  | 69 => ⟨S50000x64, .f32⟩
  | 70 => ⟨S1x64, .f32⟩
  | 71 => ⟨S50000x64, .f32⟩
  | 72 => ⟨S50000x64, .f32⟩
  | 73 => ⟨S_, .f32⟩
  | 74 => ⟨S50000x64, .f32⟩
  | 75 => ⟨S50000x64, .f32⟩
  | 76 => ⟨S50000x64, .f32⟩
  | 77 => ⟨S_, .i32⟩
  | 78 => ⟨S850000, .i32⟩
  | 79 => ⟨S850000, .i1⟩
  | 80 => ⟨S_, .i32⟩
  | 81 => ⟨S850000, .i32⟩
  | 82 => ⟨S850000, .i32⟩
  | 83 => ⟨S850000, .i32⟩
  | 84 => ⟨S850000x1, .i32⟩
  | 85 => ⟨S850000x64, .f32⟩
  | 86 => ⟨S850000x1, .f32⟩
  | 87 => ⟨S850000x64, .f32⟩
  | 88 => ⟨S850000x64, .f32⟩
  | 89 => ⟨S_, .f32⟩
  | 90 => ⟨S50000x64, .f32⟩
  | 91 => ⟨S850000x1, .i32⟩
  | 92 => ⟨S50000x64, .f32⟩
  | 93 => ⟨S1x64, .f32⟩
  | 94 => ⟨S50000x64, .f32⟩
  | 95 => ⟨S50000x64, .f32⟩
  | 96 => ⟨S_, .f32⟩
  | 97 => ⟨S50000x64, .f32⟩
  | 98 => ⟨S50000x64, .f32⟩
  | 99 => ⟨S50000x64, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000x64, .f32⟩
  | 109 => ⟨S850000x1, .f32⟩
  | 110 => ⟨S850000x64, .f32⟩
  | 111 => ⟨S850000x64, .f32⟩
  | 112 => ⟨S_, .f32⟩
  | 113 => ⟨S50000x64, .f32⟩
  | 114 => ⟨S850000x1, .i32⟩
  | 115 => ⟨S50000x64, .f32⟩
  | 116 => ⟨S1x64, .f32⟩
  | 117 => ⟨S50000x64, .f32⟩
  | 118 => ⟨S50000x64, .f32⟩
  | 119 => ⟨S_, .f32⟩
  | 120 => ⟨S50000x64, .f32⟩
  | 121 => ⟨S50000x64, .f32⟩
  | 122 => ⟨S_, .f32⟩
  | 123 => ⟨S2048x64, .f32⟩
  | 124 => ⟨S50000x1, .i32⟩
  | 125 => ⟨S2048x64, .f32⟩
  | 126 => ⟨S_, .f32⟩
  | 127 => ⟨S50000, .f32⟩
  | _ => ⟨S50000x32, .f32⟩

abbrev hbmTy0_1 (i : Nat) : BufTy := match i % 128 with
  | 0 => ⟨S_, .f32⟩
  | 1 => ⟨S2048, .f32⟩
  | 2 => ⟨S50000x1, .i32⟩
  | 3 => ⟨S2048, .f32⟩
  | 4 => ⟨S_, .f32⟩
  | 5 => ⟨S2048, .f32⟩
  | 6 => ⟨S2048, .f32⟩
  | 7 => ⟨S2048x1, .f32⟩
  | 8 => ⟨S2048x64, .f32⟩
  | 9 => ⟨S2048x64, .f32⟩
  | 10 => ⟨S2048x64, .f32⟩
  | 11 => ⟨S1x64, .f32⟩
  | 12 => ⟨S2048x64, .f32⟩
  | 13 => ⟨S2048x64, .f32⟩
  | 14 => ⟨S_, .f32⟩
  | 15 => ⟨S2048x64, .f32⟩
  | 16 => ⟨S2048x64, .f32⟩
  | 17 => ⟨S2048x2, .f32⟩
  | 18 => ⟨S1x2, .f32⟩
  | 19 => ⟨S2048x2, .f32⟩
  | 20 => ⟨S2048x2, .f32⟩
  | _ => ⟨S50000x32, .f32⟩

abbrev hbmTy (i : Nat) : BufTy := match i / 128 with
  | 0 => hbmTy0_0 i
  | 1 => hbmTy0_1 i
  | _ => ⟨S50000x32, .f32⟩

abbrev bufTy : (tb : Table) → Fin (tcTables nBuf tb) → BufTy
  | .hbm, ⟨i, _⟩ => hbmTy i
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_cst : Ref sig .tc := ⟨.hbm, 73, rfl⟩
abbrev main_call1_v0 : Ref sig .tc := ⟨.hbm, 74, rfl⟩
abbrev main_v47 : Ref sig .tc := ⟨.hbm, 75, rfl⟩
abbrev main_v48 : Ref sig .tc := ⟨.hbm, 76, rfl⟩
abbrev main_c_9 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_11 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_call2_cst : Ref sig .tc := ⟨.hbm, 96, rfl⟩
abbrev main_call2_v0 : Ref sig .tc := ⟨.hbm, 97, rfl⟩
abbrev main_v65 : Ref sig .tc := ⟨.hbm, 98, rfl⟩
abbrev main_v66 : Ref sig .tc := ⟨.hbm, 99, rfl⟩
abbrev main_c_12 : Ref sig .tc := ⟨.hbm, 100, rfl⟩
abbrev main_v67 : Ref sig .tc := ⟨.hbm, 101, rfl⟩
abbrev main_v68 : Ref sig .tc := ⟨.hbm, 102, rfl⟩
abbrev main_c_13 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_14 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_call3_cst : Ref sig .tc := ⟨.hbm, 119, rfl⟩
abbrev main_call3_v0 : Ref sig .tc := ⟨.hbm, 120, rfl⟩
abbrev main_v83 : Ref sig .tc := ⟨.hbm, 121, rfl⟩
abbrev main_cst_15 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_16 : Ref sig .tc := ⟨.hbm, 126, rfl⟩
abbrev main_v87 : Ref sig .tc := ⟨.hbm, 127, rfl⟩
abbrev main_cst_17 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_18 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_call4_cst : Ref sig .tc := ⟨.hbm, 142, rfl⟩
abbrev main_call4_v0 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S2048x64 : S_.BroadcastsInDim S2048x64 (![] : Fin 0 → Fin S2048x64.rank)
  bcast_S50000_S50000x1_0 : S50000.BroadcastsInDim S50000x1 (![0] : Fin 1 → Fin S50000x1.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  bcast_S1x64_S2048x64_0_1 : S1x64.BroadcastsInDim S2048x64 (![0, 1] : Fin 2 → Fin S2048x64.rank)
  bcast_S2_S1x2_1 : S2.BroadcastsInDim S1x2 (![1] : Fin 1 → Fin S1x2.rank)
  bcast_S1x2_S2048x2_0_1 : S1x2.BroadcastsInDim S2048x2 (![0, 1] : Fin 2 → Fin S2048x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x32_S32x64_S50000x64_1_0_0_1_n_n_wf : DotDims.WF S50000x32 S32x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  scatter_S2048x64_S50000x1_S50000x64_1_0_0_1_wf : ScatterDims.WF S2048x64 S50000x1 S50000x64 [1] [0] [0] 1
  scatter_S2048_S50000x1_S50000_n_0_0_1_wf : ScatterDims.WF S2048 S50000x1 S50000 [] [0] [0] 1
  dot_S2048x64_S64x64_S2048x64_1_0_0_1_n_n_wf : DotDims.WF S2048x64 S64x64 S2048x64 [1] [0] [0] [1] [] []
  dot_S2048x64_S64x2_S2048x2_1_0_0_1_n_n_wf : DotDims.WF S2048x64 S64x2 S2048x2 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S2048x64_S50000x1_S50000x64_1_0_0_1 : ScatterDims S2048x64 S50000x1 S50000x64 where
  updateWindowDims := [1]
  insertedWindowDims := [0]
  scatterDimsToOperandDims := [0]
  indexVectorDim := 1
  wf := scatter_S2048x64_S50000x1_S50000x64_1_0_0_1_wf
def scatter_S2048_S50000x1_S50000_n_0_0_1 : ScatterDims S2048 S50000x1 S50000 where
  updateWindowDims := []
  insertedWindowDims := [0]
  scatterDimsToOperandDims := [0]
  indexVectorDim := 1
  wf := scatter_S2048_S50000x1_S50000_n_0_0_1_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x2_S2048x2_1_0_0_1_n_n : DotDims S2048x64 S64x2 S2048x2 where
  lhsContracting := [1]
  rhsContracting := [0]
  lhsNonContracting := [0]
  rhsNonContracting := [1]
  lhsBatch := []
  rhsBatch := []
  wf := dot_S2048x64_S64x2_S2048x2_1_0_0_1_n_n_wf

class Facts : Prop extends Facts₀ where

variable [Facts]
-- ==== Proof.KernelRun.lean ====
/-
  The idealized kernel's run with its result named.

  @main is fourteen segments: seven stretches of host operations and seven pipelined regions. The buffer contents at
  each segment boundary are a fold from the launch memory (`W0` … `W14` of the frame module): a stretch applies its
  operations, a region replaces its arrays by what its write-backs leave. Every weakly fair execution terminates in a
  state whose unscoped buffers hold the last boundary's contents `W14`; in particular the result buffer holds
  `W14` at the result, and each argument holds what it held at launch.
-/
import proofs.«122198_j40690520163162_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and every argument as launched: the launch over the fourteen segments, the final thread state read
    against the final memory, buffer by buffer. -/
theorem run_result : θ_run defs (onTc (τ := τ) (main (F := F))) ⟨m, fun _ => 0, ρ⟩ (fun r => ∀ c : Dev nD,
      r.2.mem ((c.tc : Thread nD τ).loc main_v92) = W14 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v92 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c)⟩)

end Cert.KernelIdeal.RunValue

end
-- ==== Proof.Carry.lean ====
/-
  Buffers that cross segments of @main unchanged.

  A stretch of host operations rewrites only the buffers its operations write; a pipelined region rewrites only its
  own arrays. So a buffer that neither writes keeps its contents across the segment. Listed here, per stretch, are the
  buffers it writes; from them: each argument read at the boundary where the program consumes it is its launch contents,
  and the three arrays computed before the first region (the edge sources, the edge targets, the edge weights) read
  at the later boundaries are what the first stretch left.
-/
import proofs.«122198_j40690520163162_1_alg».proof.Proof.Gen.KernelIdeal.Frame

set_option maxRecDepth 16384

noncomputable section

namespace Cert.KernelIdeal.Carry

open Cert.KernelIdeal Cert.KernelIdeal.Gen
open Idealize.ShloMosaic Idealize.ShloMosaic.TcCoe Idealize.SL.Sem

variable {F : FTy → Type} [FloatOps F]

/-- The buffers the operations of this stretch write. -/
abbrev wr0 : List (Ref sig .tc) := [main_v0, main_v1, main_v2, main_v3, main_v4, main_v5, main_v6, main_cst, main_v7, main_cst_0, main_v8, main_v9, main_v10, main_cst_1, main_v11, main_v12, main_v13, main_cst_2]
theorem wr0_sub : (hostOps0 : List (HloOp τ sig (Elt F))).Forall fun op => op.writes ⊆ (wr0.map (Proc.devRef (τ := τ) .tc)).toFinset := by
  simp only [List.Forall]
  repeat' apply And.intro
  all_goals (simp only [StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]; exact List.mem_map_of_mem (by decide))

/-- The buffers the operations of this stretch write. -/
abbrev wr0_1 : List (Ref sig .tc) := [main_call0_v0, main_call0_v1, main_v14]
theorem wr0_1_sub : (hostOps0_1 : List (HloOp τ sig (Elt F))).Forall fun op => op.writes ⊆ (wr0_1.map (Proc.devRef (τ := τ) .tc)).toFinset := by
  simp only [List.Forall]
  repeat' apply And.intro
  all_goals (simp only [StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]; exact List.mem_map_of_mem (by decide))

/-- The buffers the operations of this stretch write. -/
abbrev wr0_2 : List (Ref sig .tc) := [main_c, main_v15, main_v16, main_c_3, main_v17, main_v18, main_v19, main_v20, main_v21, main_c_4, main_v22, main_v23, main_c_5, main_v24, main_v25, main_v26, main_v27, main_v28, main_v29]
theorem wr0_2_sub : (hostOps0_2 : List (HloOp τ sig (Elt F))).Forall fun op => op.writes ⊆ (wr0_2.map (Proc.devRef (τ := τ) .tc)).toFinset := by
  simp only [List.Forall]
  repeat' apply And.intro
  all_goals (simp only [StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]; exact List.mem_map_of_mem (by decide))

/-- The buffers the operations of this stretch write. -/
abbrev wr1 : List (Ref sig .tc) := [main_c_6, main_v31, main_v32, main_c_7, main_v33, main_v34, main_v35, main_v36, main_v37, main_v38, main_v39, main_v40, main_cst_8, main_v41, main_v42, main_v43, main_v44]
theorem wr1_sub : (hostOps1 : List (HloOp τ sig (Elt F))).Forall fun op => op.writes ⊆ (wr1.map (Proc.devRef (τ := τ) .tc)).toFinset := by
  simp only [List.Forall]
  repeat' apply And.intro
  all_goals (simp only [StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]; exact List.mem_map_of_mem (by decide))

/-- The buffers the operations of this stretch write. -/
abbrev wr3 : List (Ref sig .tc) := [main_c_9, main_v47, main_v48, main_c_10, main_v49, main_v50, main_v51, main_v52, main_v53, main_v54, main_v55, main_v56, main_cst_11, main_v57, main_v58, main_v59, main_v60]
theorem wr3_sub : (hostOps3 : List (HloOp τ sig (Elt F))).Forall fun op => op.writes ⊆ (wr3.map (Proc.devRef (τ := τ) .tc)).toFinset := by
  simp only [List.Forall]
  repeat' apply And.intro
  all_goals (simp only [StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]; exact List.mem_map_of_mem (by decide))

/-- The buffers the operations of this stretch write. -/
abbrev wr5 : List (Ref sig .tc) := [main_c_12, main_v63, main_v64, main_c_13, main_v65, main_v66, main_v67, main_v68, main_v69, main_v70, main_v71, main_v72, main_cst_14, main_v73, main_v74, main_v75, main_v76]
theorem wr5_sub : (hostOps5 : List (HloOp τ sig (Elt F))).Forall fun op => op.writes ⊆ (wr5.map (Proc.devRef (τ := τ) .tc)).toFinset := by
  simp only [List.Forall]
  repeat' apply And.intro
  all_goals (simp only [StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]; exact List.mem_map_of_mem (by decide))

/-- The buffers the operations of this stretch write. -/
abbrev wr6 : List (Ref sig .tc) := [main_cst_15, main_v78, main_v79, main_v80, main_cst_16, main_v81, main_cst_17, main_v82, main_v83, main_v84, main_cst_18, main_v85, main_v86, main_v87, main_v88, main_v89, main_v90, main_v91]
theorem wr6_sub : (hostOps6 : List (HloOp τ sig (Elt F))).Forall fun op => op.writes ⊆ (wr6.map (Proc.devRef (τ := τ) .tc)).toFinset := by
  simp only [List.Forall]
  repeat' apply And.intro
  all_goals (simp only [StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]; exact List.mem_map_of_mem (by decide))

variable (m : (ℓ : Loc nD τ sig) → Buf (Elt F) ℓ) (ρ : Dev nD → PrngReg) (c : Dev nD)

/-! ## One stretch: a buffer it does not write is as before -/

theorem W1_of (r : Ref sig .tc) (h : r ∉ wr0) : W1 m ρ c (Proc.devRef .tc r) = W0 m ρ c (Proc.devRef .tc r) :=
  StableHlo.after_of_writes_sub hostOps0 _ wr0_sub h
theorem W2_of (r : Ref sig .tc) (h : r ∉ wr0_1) : W2 m ρ c (Proc.devRef .tc r) = W1 m ρ c (Proc.devRef .tc r) :=
  StableHlo.after_of_writes_sub hostOps0_1 _ wr0_1_sub h
theorem W3_of (r : Ref sig .tc) (h : r ∉ wr0_2) : W3 m ρ c (Proc.devRef .tc r) = W2 m ρ c (Proc.devRef .tc r) :=
  StableHlo.after_of_writes_sub hostOps0_2 _ wr0_2_sub h
theorem W5_of (r : Ref sig .tc) (h : r ∉ wr1) : W5 m ρ c (Proc.devRef .tc r) = W4 m ρ c (Proc.devRef .tc r) :=
  StableHlo.after_of_writes_sub hostOps1 _ wr1_sub h
theorem W8_of (r : Ref sig .tc) (h : r ∉ wr3) : W8 m ρ c (Proc.devRef .tc r) = W7 m ρ c (Proc.devRef .tc r) :=
  StableHlo.after_of_writes_sub hostOps3 _ wr3_sub h
theorem W11_of (r : Ref sig .tc) (h : r ∉ wr5) : W11 m ρ c (Proc.devRef .tc r) = W10 m ρ c (Proc.devRef .tc r) :=
  StableHlo.after_of_writes_sub hostOps5 _ wr5_sub h
theorem W13_of (r : Ref sig .tc) (h : r ∉ wr6) : W13 m ρ c (Proc.devRef .tc r) = W12 m ρ c (Proc.devRef .tc r) :=
  StableHlo.after_of_writes_sub hostOps6 _ wr6_sub h

/-! ## The arguments where the program reads them -/

theorem W3_main_arg0 : W3 m ρ c (Proc.devRef .tc main_arg0) = m ((c : Thread nD τ).loc main_arg0) :=
  ((W3_of m ρ c main_arg0 (by decide)).trans ((W2_of m ρ c main_arg0 (by decide)).trans (W1_of m ρ c main_arg0 (by decide)))).trans rfl
theorem W3_main_arg3 : W3 m ρ c (Proc.devRef .tc main_arg3) = m ((c : Thread nD τ).loc main_arg3) :=
  ((W3_of m ρ c main_arg3 (by decide)).trans ((W2_of m ρ c main_arg3 (by decide)).trans (W1_of m ρ c main_arg3 (by decide)))).trans rfl
theorem W4_main_arg4 : W4 m ρ c (Proc.devRef .tc main_arg4) = m ((c : Thread nD τ).loc main_arg4) :=
  ((W4_of_ne m ρ c main_arg4 (by decide)).trans ((W3_of m ρ c main_arg4 (by decide)).trans ((W2_of m ρ c main_arg4 (by decide)).trans (W1_of m ρ c main_arg4 (by decide))))).trans rfl
theorem W6_main_arg5 : W6 m ρ c (Proc.devRef .tc main_arg5) = m ((c : Thread nD τ).loc main_arg5) :=
  ((W6_of_ne m ρ c main_arg5 (by decide)).trans ((W5_of m ρ c main_arg5 (by decide)).trans ((W4_of_ne m ρ c main_arg5 (by decide)).trans ((W3_of m ρ c main_arg5 (by decide)).trans ((W2_of m ρ c main_arg5 (by decide)).trans (W1_of m ρ c main_arg5 (by decide))))))).trans rfl
theorem W7_main_arg6 : W7 m ρ c (Proc.devRef .tc main_arg6) = m ((c : Thread nD τ).loc main_arg6) :=
  ((W7_of_ne m ρ c main_arg6 (by decide)).trans ((W6_of_ne m ρ c main_arg6 (by decide)).trans ((W5_of m ρ c main_arg6 (by decide)).trans ((W4_of_ne m ρ c main_arg6 (by decide)).trans ((W3_of m ρ c main_arg6 (by decide)).trans ((W2_of m ρ c main_arg6 (by decide)).trans (W1_of m ρ c main_arg6 (by decide)))))))).trans rfl
theorem W9_main_arg7 : W9 m ρ c (Proc.devRef .tc main_arg7) = m ((c : Thread nD τ).loc main_arg7) :=
  ((W9_of_ne m ρ c main_arg7 (by decide)).trans ((W8_of m ρ c main_arg7 (by decide)).trans ((W7_of_ne m ρ c main_arg7 (by decide)).trans ((W6_of_ne m ρ c main_arg7 (by decide)).trans ((W5_of m ρ c main_arg7 (by decide)).trans ((W4_of_ne m ρ c main_arg7 (by decide)).trans ((W3_of m ρ c main_arg7 (by decide)).trans ((W2_of m ρ c main_arg7 (by decide)).trans (W1_of m ρ c main_arg7 (by decide)))))))))).trans rfl
theorem W10_main_arg8 : W10 m ρ c (Proc.devRef .tc main_arg8) = m ((c : Thread nD τ).loc main_arg8) :=
  ((W10_of_ne m ρ c main_arg8 (by decide)).trans ((W9_of_ne m ρ c main_arg8 (by decide)).trans ((W8_of m ρ c main_arg8 (by decide)).trans ((W7_of_ne m ρ c main_arg8 (by decide)).trans ((W6_of_ne m ρ c main_arg8 (by decide)).trans ((W5_of m ρ c main_arg8 (by decide)).trans ((W4_of_ne m ρ c main_arg8 (by decide)).trans ((W3_of m ρ c main_arg8 (by decide)).trans ((W2_of m ρ c main_arg8 (by decide)).trans (W1_of m ρ c main_arg8 (by decide))))))))))).trans rfl
theorem W12_main_arg2 : W12 m ρ c (Proc.devRef .tc main_arg2) = m ((c : Thread nD τ).loc main_arg2) :=
  ((W12_of_ne m ρ c main_arg2 (by decide)).trans ((W11_of m ρ c main_arg2 (by decide)).trans ((W10_of_ne m ρ c main_arg2 (by decide)).trans ((W9_of_ne m ρ c main_arg2 (by decide)).trans ((W8_of m ρ c main_arg2 (by decide)).trans ((W7_of_ne m ρ c main_arg2 (by decide)).trans ((W6_of_ne m ρ c main_arg2 (by decide)).trans ((W5_of m ρ c main_arg2 (by decide)).trans ((W4_of_ne m ρ c main_arg2 (by decide)).trans ((W3_of m ρ c main_arg2 (by decide)).trans ((W2_of m ρ c main_arg2 (by decide)).trans (W1_of m ρ c main_arg2 (by decide))))))))))))).trans rfl
theorem W12_main_arg10 : W12 m ρ c (Proc.devRef .tc main_arg10) = m ((c : Thread nD τ).loc main_arg10) :=
  ((W12_of_ne m ρ c main_arg10 (by decide)).trans ((W11_of m ρ c main_arg10 (by decide)).trans ((W10_of_ne m ρ c main_arg10 (by decide)).trans ((W9_of_ne m ρ c main_arg10 (by decide)).trans ((W8_of m ρ c main_arg10 (by decide)).trans ((W7_of_ne m ρ c main_arg10 (by decide)).trans ((W6_of_ne m ρ c main_arg10 (by decide)).trans ((W5_of m ρ c main_arg10 (by decide)).trans ((W4_of_ne m ρ c main_arg10 (by decide)).trans ((W3_of m ρ c main_arg10 (by decide)).trans ((W2_of m ρ c main_arg10 (by decide)).trans (W1_of m ρ c main_arg10 (by decide))))))))))))).trans rfl
theorem W12_main_arg12 : W12 m ρ c (Proc.devRef .tc main_arg12) = m ((c : Thread nD τ).loc main_arg12) :=
  ((W12_of_ne m ρ c main_arg12 (by decide)).trans ((W11_of m ρ c main_arg12 (by decide)).trans ((W10_of_ne m ρ c main_arg12 (by decide)).trans ((W9_of_ne m ρ c main_arg12 (by decide)).trans ((W8_of m ρ c main_arg12 (by decide)).trans ((W7_of_ne m ρ c main_arg12 (by decide)).trans ((W6_of_ne m ρ c main_arg12 (by decide)).trans ((W5_of m ρ c main_arg12 (by decide)).trans ((W4_of_ne m ρ c main_arg12 (by decide)).trans ((W3_of m ρ c main_arg12 (by decide)).trans ((W2_of m ρ c main_arg12 (by decide)).trans (W1_of m ρ c main_arg12 (by decide))))))))))))).trans rfl
theorem W13_main_arg9 : W13 m ρ c (Proc.devRef .tc main_arg9) = m ((c : Thread nD τ).loc main_arg9) :=
  ((W13_of m ρ c main_arg9 (by decide)).trans ((W12_of_ne m ρ c main_arg9 (by decide)).trans ((W11_of m ρ c main_arg9 (by decide)).trans ((W10_of_ne m ρ c main_arg9 (by decide)).trans ((W9_of_ne m ρ c main_arg9 (by decide)).trans ((W8_of m ρ c main_arg9 (by decide)).trans ((W7_of_ne m ρ c main_arg9 (by decide)).trans ((W6_of_ne m ρ c main_arg9 (by decide)).trans ((W5_of m ρ c main_arg9 (by decide)).trans ((W4_of_ne m ρ c main_arg9 (by decide)).trans ((W3_of m ρ c main_arg9 (by decide)).trans ((W2_of m ρ c main_arg9 (by decide)).trans (W1_of m ρ c main_arg9 (by decide)))))))))))))).trans rfl
theorem W13_main_arg11 : W13 m ρ c (Proc.devRef .tc main_arg11) = m ((c : Thread nD τ).loc main_arg11) :=
  ((W13_of m ρ c main_arg11 (by decide)).trans ((W12_of_ne m ρ c main_arg11 (by decide)).trans ((W11_of m ρ c main_arg11 (by decide)).trans ((W10_of_ne m ρ c main_arg11 (by decide)).trans ((W9_of_ne m ρ c main_arg11 (by decide)).trans ((W8_of m ρ c main_arg11 (by decide)).trans ((W7_of_ne m ρ c main_arg11 (by decide)).trans ((W6_of_ne m ρ c main_arg11 (by decide)).trans ((W5_of m ρ c main_arg11 (by decide)).trans ((W4_of_ne m ρ c main_arg11 (by decide)).trans ((W3_of m ρ c main_arg11 (by decide)).trans ((W2_of m ρ c main_arg11 (by decide)).trans (W1_of m ρ c main_arg11 (by decide)))))))))))))).trans rfl

/-! ## The edge arrays at the later boundaries -/

theorem W4_main_v3 : W4 m ρ c (Proc.devRef .tc main_v3) = W3 m ρ c (Proc.devRef .tc main_v3) :=
  (W4_of_ne m ρ c main_v3 (by decide))
theorem W7_main_v3 : W7 m ρ c (Proc.devRef .tc main_v3) = W3 m ρ c (Proc.devRef .tc main_v3) :=
  (W7_of_ne m ρ c main_v3 (by decide)).trans ((W6_of_ne m ρ c main_v3 (by decide)).trans ((W5_of m ρ c main_v3 (by decide)).trans (W4_of_ne m ρ c main_v3 (by decide))))
theorem W10_main_v3 : W10 m ρ c (Proc.devRef .tc main_v3) = W3 m ρ c (Proc.devRef .tc main_v3) :=
  (W10_of_ne m ρ c main_v3 (by decide)).trans ((W9_of_ne m ρ c main_v3 (by decide)).trans ((W8_of m ρ c main_v3 (by decide)).trans ((W7_of_ne m ρ c main_v3 (by decide)).trans ((W6_of_ne m ρ c main_v3 (by decide)).trans ((W5_of m ρ c main_v3 (by decide)).trans (W4_of_ne m ρ c main_v3 (by decide)))))))
theorem W4_main_v6 : W4 m ρ c (Proc.devRef .tc main_v6) = W3 m ρ c (Proc.devRef .tc main_v6) :=
  (W4_of_ne m ρ c main_v6 (by decide))
theorem W7_main_v6 : W7 m ρ c (Proc.devRef .tc main_v6) = W3 m ρ c (Proc.devRef .tc main_v6) :=
  (W7_of_ne m ρ c main_v6 (by decide)).trans ((W6_of_ne m ρ c main_v6 (by decide)).trans ((W5_of m ρ c main_v6 (by decide)).trans (W4_of_ne m ρ c main_v6 (by decide))))
theorem W10_main_v6 : W10 m ρ c (Proc.devRef .tc main_v6) = W3 m ρ c (Proc.devRef .tc main_v6) :=
  (W10_of_ne m ρ c main_v6 (by decide)).trans ((W9_of_ne m ρ c main_v6 (by decide)).trans ((W8_of m ρ c main_v6 (by decide)).trans ((W7_of_ne m ρ c main_v6 (by decide)).trans ((W6_of_ne m ρ c main_v6 (by decide)).trans ((W5_of m ρ c main_v6 (by decide)).trans (W4_of_ne m ρ c main_v6 (by decide)))))))
theorem W4_main_v29 : W4 m ρ c (Proc.devRef .tc main_v29) = W3 m ρ c (Proc.devRef .tc main_v29) :=
  (W4_of_ne m ρ c main_v29 (by decide))
theorem W7_main_v29 : W7 m ρ c (Proc.devRef .tc main_v29) = W3 m ρ c (Proc.devRef .tc main_v29) :=
  (W7_of_ne m ρ c main_v29 (by decide)).trans ((W6_of_ne m ρ c main_v29 (by decide)).trans ((W5_of m ρ c main_v29 (by decide)).trans (W4_of_ne m ρ c main_v29 (by decide))))
theorem W10_main_v29 : W10 m ρ c (Proc.devRef .tc main_v29) = W3 m ρ c (Proc.devRef .tc main_v29) :=
  (W10_of_ne m ρ c main_v29 (by decide)).trans ((W9_of_ne m ρ c main_v29 (by decide)).trans ((W8_of m ρ c main_v29 (by decide)).trans ((W7_of_ne m ρ c main_v29 (by decide)).trans ((W6_of_ne m ρ c main_v29 (by decide)).trans ((W5_of m ρ c main_v29 (by decide)).trans (W4_of_ne m ρ c main_v29 (by decide)))))))

end Cert.KernelIdeal.Carry

end
-- ==== Proof.HostStages.lean ====
/-
  The host stretches of the kernel's program, read against the reference's stages.

  Between its regions the kernel's program applies the same host operations as the reference: the edge lists with
  self loops, the symmetric normalisation `deg^(-1/2)[src] · deg^(-1/2)[dst]`, and per layer "gather the rows at the edge
  sources, scale by the edge weight, add into the rows at the edge targets"; at the end the mean over each graph. So
  when the buffers a stretch reads hold the reference's stage values, the buffers it writes hold the reference's later
  stage values: both sides are the same operations on the same operands. A bias vector reshaped to a `1 × c` row reads
  at `(0, q)` the vector's entry `q`.
-/
import proofs.«122198_j40690520163162_1_alg».proof.Proof.Gen.KernelIdeal.Launch
import proofs.«122198_j40690520163162_1_alg».proof.Proof.RefReadP
import Idealize.ShloMosaic.Lib.StableHlo.Run
import Idealize.ShloMosaic.Lib.ValueLayout

set_option maxRecDepth 16384

noncomputable section

namespace Cert.KernelIdeal.HostStages

open Idealize.ShloMosaic Idealize.ShloMosaic.TcCoe Idealize.SL.Sem Idealize.ShloMosaic.ValueIdx Idealize.ShloMosaic.StableHlo
open Cert.KernelIdeal Cert.KernelIdeal.Gen Cert.ReferenceIdeal.ReadP

set_option maxHeartbeats 4000000 in
/-- The edge sources: the first row of the edge list followed by every node (the self loops). -/
theorem edge_sources (W : Valuation τ sig (Elt Ideal)) :
    StableHlo.after (hostOps0 : List (HloOp τ sig (Elt Ideal))) W (Proc.devRef .tc main_v3)
      = val_main_v3 (F := Ideal) (W (Proc.devRef .tc main_arg1)) := by
  after_results_simp
  simp only [val_main_v0, val_main_v1, val_main_v2, val_main_v3]
  rfl

set_option maxHeartbeats 4000000 in
/-- The edge targets: the second row of the edge list followed by every node. -/
theorem edge_targets (W : Valuation τ sig (Elt Ideal)) :
    StableHlo.after (hostOps0 : List (HloOp τ sig (Elt Ideal))) W (Proc.devRef .tc main_v6)
      = val_main_v6 (F := Ideal) (W (Proc.devRef .tc main_arg1)) := by
  after_results_simp
  simp only [val_main_v0, val_main_v1, val_main_v2, val_main_v3, val_main_v4, val_main_v5, val_main_v6]
  rfl

set_option maxHeartbeats 4000000 in
/-- Where the degree (the incoming edges and the self loop, counted by adding ones at the edge targets) is positive. -/
theorem degree_positive (W : Valuation τ sig (Elt Ideal)) :
    StableHlo.after (hostOps0 : List (HloOp τ sig (Elt Ideal))) W (Proc.devRef .tc main_v12)
      = val_main_v12 (F := Ideal) (W (Proc.devRef .tc main_arg1)) := by
  after_results_simp
  simp only [val_main_v0, val_main_v1, val_main_v2, val_main_v3, val_main_v4, val_main_v5, val_main_v6, val_main_cst, val_main_v7, val_main_cst_0, val_main_v8, val_main_v9, val_main_v10, val_main_cst_1, val_main_v11, val_main_v12]
  rfl

set_option maxHeartbeats 4000000 in
/-- The degree to the power -1/2. -/
theorem degree_rsqrt (W : Valuation τ sig (Elt Ideal)) :
    StableHlo.after (hostOps0 : List (HloOp τ sig (Elt Ideal))) W (Proc.devRef .tc main_v13)
      = val_main_v13 (F := Ideal) (W (Proc.devRef .tc main_arg1)) := by
  after_results_simp
  simp only [val_main_v0, val_main_v1, val_main_v2, val_main_v3, val_main_v4, val_main_v5, val_main_v6, val_main_cst, val_main_v7, val_main_cst_0, val_main_v8, val_main_v9, val_main_v10, val_main_cst_1, val_main_v11, val_main_v12, val_main_v13]
  rfl

set_option maxHeartbeats 4000000 in
/-- The scalar zero chosen where the degree is zero. -/
theorem zero_scalar (W : Valuation τ sig (Elt Ideal)) :
    StableHlo.after (hostOps0 : List (HloOp τ sig (Elt Ideal))) W (Proc.devRef .tc main_cst_2)
      = val_main_cst_2 (F := Ideal) := by
  after_results_simp
  rfl

/-- The selection "`a` where the mask holds, the scalar `z` spread over the nodes elsewhere" that the stretch computes,
    for any mask, array and scalar in the three buffers it reads. -/
theorem node_scale_of (W : Valuation τ sig (Elt Ideal)) (a12 : (⟨S50000, .i1⟩ : BufTy).Contents (Elt Ideal))
    (a13 : (⟨S50000, .f32⟩ : BufTy).Contents (Elt Ideal)) (z : (⟨S_, .f32⟩ : BufTy).Contents (Elt Ideal))
    (h12 : W (Proc.devRef .tc main_v12) = a12) (h13 : W (Proc.devRef .tc main_v13) = a13) (hz : W (Proc.devRef .tc main_cst_2) = z) :
    StableHlo.after (hostOps0_1 : List (HloOp τ sig (Elt Ideal))) W (Proc.devRef .tc main_v14)
      = select a12 a13 (broadcastInDim S50000 ![] bcast_S_S50000 (id z)) := by
  after_results_simp
  rw [h12, h13, hz]
  rfl

/-- The node scale: `deg^(-1/2)` where the degree is positive, zero elsewhere. -/
theorem node_scale (W : Valuation τ sig (Elt Ideal)) (x1 : (⟨S2x800000, .i32⟩ : BufTy).Contents (Elt Ideal))
    (h12 : W (Proc.devRef .tc main_v12) = val_main_v12 (F := Ideal) x1) (h13 : W (Proc.devRef .tc main_v13) = val_main_v13 (F := Ideal) x1)
    (hz : W (Proc.devRef .tc main_cst_2) = val_main_cst_2 (F := Ideal)) :
    StableHlo.after (hostOps0_1 : List (HloOp τ sig (Elt Ideal))) W (Proc.devRef .tc main_v14) = val_main_v14 (F := Ideal) x1 := by
  refine (node_scale_of W _ _ _ h12 h13 hz).trans ?_
  simp only [val_main_v14, val_main_call0_v1, val_main_call0_v0]

set_option maxHeartbeats 4000000 in
/-- The edge weights: the node scale at the edge's source times the node scale at its target. -/
theorem edge_weights (W : Valuation τ sig (Elt Ideal)) (x1 : (⟨S2x800000, .i32⟩ : BufTy).Contents (Elt Ideal))
    (h3 : W (Proc.devRef .tc main_v3) = val_main_v3 (F := Ideal) x1) (h6 : W (Proc.devRef .tc main_v6) = val_main_v6 (F := Ideal) x1)
    (h14 : W (Proc.devRef .tc main_v14) = val_main_v14 (F := Ideal) x1) :
    StableHlo.after (hostOps0_2 : List (HloOp τ sig (Elt Ideal))) W (Proc.devRef .tc main_v29) = val_main_v29 (F := Ideal) x1 := by
  after_results_simp
  rw [h3, h6, h14]
  simp only [val_main_c, val_main_v15, val_main_v16, val_main_c_3, val_main_v17, val_main_v18, val_main_v19, val_main_v20, val_main_v21, val_main_c_4, val_main_v22, val_main_v23, val_main_c_5, val_main_v24, val_main_v25, val_main_v26, val_main_v27, val_main_v28, val_main_v29]
  rfl

set_option maxHeartbeats 4000000 in
/-- The first layer's aggregation: gather the projected rows at the edge sources, scale by the edge weights, add into the rows at the edge targets. -/
theorem agg_first (W : Valuation τ sig (Elt Ideal)) (x0 : (⟨S50000x32, .f32⟩ : BufTy).Contents (Elt Ideal)) (x1 : (⟨S2x800000, .i32⟩ : BufTy).Contents (Elt Ideal)) (x3 : (⟨S32x64, .f32⟩ : BufTy).Contents (Elt Ideal))
    (hh : W (Proc.devRef .tc main_v30) = val_main_v30 (F := Ideal) x0 x3)
    (h3 : W (Proc.devRef .tc main_v3) = val_main_v3 (F := Ideal) x1) (h6 : W (Proc.devRef .tc main_v6) = val_main_v6 (F := Ideal) x1)
    (h29 : W (Proc.devRef .tc main_v29) = val_main_v29 (F := Ideal) x1) :
    StableHlo.after (hostOps1 : List (HloOp τ sig (Elt Ideal))) W (Proc.devRef .tc main_v43) = val_main_v43 (F := Ideal) x0 x1 x3 := by
  after_results_simp
  rw [hh, h3, h6, h29]
  simp only [val_main_c_6, val_main_v31, val_main_v32, val_main_c_7, val_main_v33, val_main_v34, val_main_v35, val_main_v36, val_main_v37, val_main_v38, val_main_v39, val_main_v40, val_main_cst_8, val_main_v41, val_main_v42, val_main_v43]
  rfl

/-- The first layer's bias as a row. -/
theorem row_first (W : Valuation τ sig (Elt Ideal)) (q : Fin 64) :
    (StableHlo.after (hostOps1 : List (HloOp τ sig (Elt Ideal))) W (Proc.devRef .tc main_v44) : S1x64.Idx → EReal) (ix2 (0 : Fin 1) q)
      = (W (Proc.devRef .tc main_arg4) : S64.Idx → EReal) (ix1 q) := by
  have e : StableHlo.after (hostOps1 : List (HloOp τ sig (Elt Ideal))) W (Proc.devRef .tc main_v44)
      = shapeCast S1x64 (W (Proc.devRef .tc main_arg4) : S64.Idx → EReal) shapeCasts_S64_S1x64 := by
    after_results
    rfl
  rw [e]
  exact shapeCast_a_1a_apply _ _ (0 : Fin 1) q

set_option maxHeartbeats 4000000 in
/-- The second layer's aggregation. -/
theorem agg_second (W : Valuation τ sig (Elt Ideal)) (x0 : (⟨S50000x32, .f32⟩ : BufTy).Contents (Elt Ideal)) (x1 : (⟨S2x800000, .i32⟩ : BufTy).Contents (Elt Ideal)) (x3 : (⟨S32x64, .f32⟩ : BufTy).Contents (Elt Ideal)) (x4 : (⟨S64, .f32⟩ : BufTy).Contents (Elt Ideal)) (x5 : (⟨S64x64, .f32⟩ : BufTy).Contents (Elt Ideal))
    (hh : W (Proc.devRef .tc main_v46) = val_main_v48 (F := Ideal) x0 x1 x3 x4 x5)
    (h3 : W (Proc.devRef .tc main_v3) = val_main_v3 (F := Ideal) x1) (h6 : W (Proc.devRef .tc main_v6) = val_main_v6 (F := Ideal) x1)
    (h29 : W (Proc.devRef .tc main_v29) = val_main_v29 (F := Ideal) x1) :
    StableHlo.after (hostOps3 : List (HloOp τ sig (Elt Ideal))) W (Proc.devRef .tc main_v59) = val_main_v61 (F := Ideal) x0 x1 x3 x4 x5 := by
  after_results_simp
  rw [hh, h3, h6, h29]
  simp only [val_main_c_9, val_main_v49, val_main_v50, val_main_c_10, val_main_v51, val_main_v52, val_main_v53, val_main_v54, val_main_v55, val_main_v56, val_main_v57, val_main_v58, val_main_cst_11, val_main_v59, val_main_v60, val_main_v61]
  rfl

/-- The second layer's bias as a row. -/
theorem row_second (W : Valuation τ sig (Elt Ideal)) (q : Fin 64) :
    (StableHlo.after (hostOps3 : List (HloOp τ sig (Elt Ideal))) W (Proc.devRef .tc main_v60) : S1x64.Idx → EReal) (ix2 (0 : Fin 1) q)
      = (W (Proc.devRef .tc main_arg6) : S64.Idx → EReal) (ix1 q) := by
  have e : StableHlo.after (hostOps3 : List (HloOp τ sig (Elt Ideal))) W (Proc.devRef .tc main_v60)
      = shapeCast S1x64 (W (Proc.devRef .tc main_arg6) : S64.Idx → EReal) shapeCasts_S64_S1x64 := by
    after_results
    rfl
  rw [e]
  exact shapeCast_a_1a_apply _ _ (0 : Fin 1) q

set_option maxHeartbeats 4000000 in
/-- The third layer's aggregation. -/
theorem agg_third (W : Valuation τ sig (Elt Ideal)) (x0 : (⟨S50000x32, .f32⟩ : BufTy).Contents (Elt Ideal)) (x1 : (⟨S2x800000, .i32⟩ : BufTy).Contents (Elt Ideal)) (x3 : (⟨S32x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal))
    (hh : W (Proc.devRef .tc main_v62) = val_main_v66 (F := Ideal) x0 x1 x3 x4 x5 x6 x7)
    (h3 : W (Proc.devRef .tc main_v3) = val_main_v3 (F := Ideal) x1) (h6 : W (Proc.devRef .tc main_v6) = val_main_v6 (F := Ideal) x1)
    (h29 : W (Proc.devRef .tc main_v29) = val_main_v29 (F := Ideal) x1) :
    StableHlo.after (hostOps5 : List (HloOp τ sig (Elt Ideal))) W (Proc.devRef .tc main_v75) = val_main_v79 (F := Ideal) x0 x1 x3 x4 x5 x6 x7 := by
  after_results_simp
  rw [hh, h3, h6, h29]
  simp only [val_main_c_12, val_main_v67, val_main_v68, val_main_c_13, val_main_v69, val_main_v70, val_main_v71, val_main_v72, val_main_v73, val_main_v74, val_main_v75, val_main_v76, val_main_cst_14, val_main_v77, val_main_v78, val_main_v79]
  rfl

/-- The third layer's bias as a row. -/
theorem row_third (W : Valuation τ sig (Elt Ideal)) (q : Fin 64) :
    (StableHlo.after (hostOps5 : List (HloOp τ sig (Elt Ideal))) W (Proc.devRef .tc main_v76) : S1x64.Idx → EReal) (ix2 (0 : Fin 1) q)
      = (W (Proc.devRef .tc main_arg8) : S64.Idx → EReal) (ix1 q) := by
  have e : StableHlo.after (hostOps5 : List (HloOp τ sig (Elt Ideal))) W (Proc.devRef .tc main_v76)
      = shapeCast S1x64 (W (Proc.devRef .tc main_arg8) : S64.Idx → EReal) shapeCasts_S64_S1x64 := by
    after_results
    rfl
  rw [e]
  exact shapeCast_a_1a_apply _ _ (0 : Fin 1) q

set_option maxHeartbeats 4000000 in
/-- The mean over each graph: the rows of the last layer added into their graph's row, divided by the graph's node
    count (at least one). -/
theorem graph_mean (W : Valuation τ sig (Elt Ideal)) (x0 : (⟨S50000x32, .f32⟩ : BufTy).Contents (Elt Ideal)) (x1 : (⟨S2x800000, .i32⟩ : BufTy).Contents (Elt Ideal)) (x2 : (⟨S50000, .i32⟩ : BufTy).Contents (Elt Ideal)) (x3 : (⟨S32x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal))
    (hh : W (Proc.devRef .tc main_v77) = val_main_v83 (F := Ideal) x0 x1 x3 x4 x5 x6 x7 x8)
    (h2 : W (Proc.devRef .tc main_arg2) = x2) :
    StableHlo.after (hostOps6 : List (HloOp τ sig (Elt Ideal))) W (Proc.devRef .tc main_v89) = val_main_v95 (F := Ideal) x0 x1 x2 x3 x4 x5 x6 x7 x8 := by
  after_results_simp
  rw [hh, h2]
  simp only [val_main_cst_15, val_main_v84, val_main_v85, val_main_v86, val_main_cst_16, val_main_v87, val_main_cst_17, val_main_v88, val_main_v89, val_main_v90, val_main_cst_18, val_main_v91, val_main_v92, val_main_v93, val_main_v94, val_main_v95]
  rfl

/-- The head's hidden bias as a row. -/
theorem row_hidden (W : Valuation τ sig (Elt Ideal)) (q : Fin 64) :
    (StableHlo.after (hostOps6 : List (HloOp τ sig (Elt Ideal))) W (Proc.devRef .tc main_v90) : S1x64.Idx → EReal) (ix2 (0 : Fin 1) q)
      = (W (Proc.devRef .tc main_arg10) : S64.Idx → EReal) (ix1 q) := by
  have e : StableHlo.after (hostOps6 : List (HloOp τ sig (Elt Ideal))) W (Proc.devRef .tc main_v90)
      = shapeCast S1x64 (W (Proc.devRef .tc main_arg10) : S64.Idx → EReal) shapeCasts_S64_S1x64 := by
    after_results
    rfl
  rw [e]
  exact shapeCast_a_1a_apply _ _ (0 : Fin 1) q

/-- The head's output bias as a row. -/
theorem row_out (W : Valuation τ sig (Elt Ideal)) (q : Fin 2) :
    (StableHlo.after (hostOps6 : List (HloOp τ sig (Elt Ideal))) W (Proc.devRef .tc main_v91) : S1x2.Idx → EReal) (ix2 (0 : Fin 1) q)
      = (W (Proc.devRef .tc main_arg12) : S2.Idx → EReal) (ix1 q) := by
  have e : StableHlo.after (hostOps6 : List (HloOp τ sig (Elt Ideal))) W (Proc.devRef .tc main_v91)
      = shapeCast S1x2 (W (Proc.devRef .tc main_arg12) : S2.Idx → EReal) shapeCasts_S2_S1x2 := by
    after_results
    rfl
  rw [e]
  exact shapeCast_a_1a_apply _ _ (0 : Fin 1) q

end Cert.KernelIdeal.HostStages

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.Spec.lean ====
/-
  The layers of the network as whole-array functions on the extended reals.

  Every dense step of the network is one of three functions of whole arrays: a matrix product (`rowsByCols`, in
  LibPlainDot), the addition of a bias row to every row of a matrix (`addRow`), and that sum rectified
  (`biasRelu`: `max (a + b) 0` entry by entry). The classifier head is their composition
  `(relu (p · w₁ + b₁)) · w₂ + b₂` (`head`). The bias is taken as a `1 × c` row: entry `(p, q)` of the result reads
  the bias at `(0, q)`.
-/
import proofs.«122198_j40690520163162_1_alg».proof.Proof.LibPlainDot

noncomputable section

namespace Cert.Spec

open Idealize.ShloMosaic Idealize.ShloMosaic.ValueIdx Cert.Lib.PlainDot

/-- Add the bias row `b` (`1 × c`) to every row of `a` (`n × c`): entry `(p, q)` is `a[p,q] + b[0,q]`. -/
def addRow {n c : ℕ} (a : (⟨2, ![n, c]⟩ : Shape).Idx → EReal) (b : (⟨2, ![1, c]⟩ : Shape).Idx → EReal) :
    (⟨2, ![n, c]⟩ : Shape).Idx → EReal :=
  fun j => a j + b (ix2 (0 : Fin 1) (j 1))

/-- The rectified sum: entry `(p, q)` is `max (a[p,q] + b[0,q]) 0`. -/
def biasRelu {n c : ℕ} (a : (⟨2, ![n, c]⟩ : Shape).Idx → EReal) (b : (⟨2, ![1, c]⟩ : Shape).Idx → EReal) :
    (⟨2, ![n, c]⟩ : Shape).Idx → EReal :=
  fun j => max (addRow a b j) 0

/-- The classifier head: `(relu (p · w₁ + b₁)) · w₂ + b₂`. -/
def head {g f h o : ℕ} (p : (⟨2, ![g, f]⟩ : Shape).Idx → EReal) (w₁ : (⟨2, ![f, h]⟩ : Shape).Idx → EReal)
    (b₁ : (⟨2, ![1, h]⟩ : Shape).Idx → EReal) (w₂ : (⟨2, ![h, o]⟩ : Shape).Idx → EReal)
    (b₂ : (⟨2, ![1, o]⟩ : Shape).Idx → EReal) : (⟨2, ![g, o]⟩ : Shape).Idx → EReal :=
  addRow (rowsByCols (biasRelu (rowsByCols p w₁) b₁) w₂) b₂

theorem addRow_apply {n c : ℕ} (a : (⟨2, ![n, c]⟩ : Shape).Idx → EReal) (b : (⟨2, ![1, c]⟩ : Shape).Idx → EReal)
    (j : (⟨2, ![n, c]⟩ : Shape).Idx) : addRow a b j = a j + b (ix2 (0 : Fin 1) (j 1)) := rfl

theorem biasRelu_apply {n c : ℕ} (a : (⟨2, ![n, c]⟩ : Shape).Idx → EReal) (b : (⟨2, ![1, c]⟩ : Shape).Idx → EReal)
    (j : (⟨2, ![n, c]⟩ : Shape).Idx) : biasRelu a b j = max (a j + b (ix2 (0 : Fin 1) (j 1))) 0 := rfl

end Cert.Spec

end
-- ==== Proof.RegionLin.lean ====
/-
  The three linear layers, each as one function of whole arrays.

  Each linear layer multiplies a 50000-row matrix by a small weight matrix, ten blocks of 5000 rows at a time: the
  point `t` of the grid reads rows `5000 t … 5000 t + 4999` of the left operand and the whole weight matrix, and writes
  the product of the two blocks to the same rows of the result. Rows of a product are the product of the rows, so the
  result array after the ten points is the product of the two whole arrays, `rowsByCols`. Per layer: the body's
  payload is the product of its two blocks (`linPayload`); read at an entry of the block it is the whole product at
  the entry's place in the array, given that the blocks are the operands' rows and the weight matrix
  (`linPoint`); the block indices of the three windows at a point, decided over the grid (`linIdx`); what a point
  writes back is its block of the whole product (`linFlushed`); an entry is in a point's block iff its row is in
  the point's range of rows (`linMem`); every row `r` is in the block of point `r / 5000` (`linCover`); so the
  array ends holding the whole product (`lin`).
-/
import proofs.«122198_j40690520163162_1_alg».proof.Proof.Gen.KernelIdeal.Frame
import proofs.«122198_j40690520163162_1_alg».proof.Proof.Spec
import Idealize.ShloMosaic.Lib.Pipeline.Value
import Idealize.ShloMosaic.Lib.ValueIdx

set_option maxRecDepth 16384

noncomputable section

namespace Cert.KernelIdeal.RegionValue

open Idealize.ShloMosaic Idealize.ShloMosaic.TcCoe Idealize.SL.Sem Idealize.ShloMosaic.ValueIdx
open Cert.KernelIdeal Cert.KernelIdeal.Gen Cert.Lib.PlainDot Cert.Spec

variable (V : (c : Dev nD) → (b : Ref sig .tc) → Buf (Elt Ideal) ((c : Thread nD τ).loc b))

/-- The zero offsets of a whole-buffer access, however spelt. -/
theorem linZeroOffsets : (![0, 0] : Fin 2 → Nat) = fun _ => 0 := funext fun a => by fin_cases a <;> rfl

/-! ## The first layer: `[50000, 32] · [32, 64]` -/

/-- The body's payload is the product of its two blocks: the changes of format are the identity on the extended
    reals, and the accumulator is zero. -/
theorem linPayload0 (x0 : Vec Ideal S5000x32 .f32) (x1 : Vec Ideal S32x64 .f32) :
    k0_pay1 x0 x1 = (rowsByCols (M := 5000) (K := 32) (N := 64) x0 x1 : S5000x64.Idx → EReal) := by
  unfold k0_pay1
  exact matmul_zero_eq dot_S5000x32_S32x64_S5000x64_1_0_0_1_n_n rfl none
    (truncf .bf16 x0 bitsLt_bf16_f32) (truncf .bf16 x1 bitsLt_bf16_f32)

/-- The payload at entry `(p, q)` of the block is the whole product at an entry `i` of the array whenever row `p`
    of the left block is row `i 0` of the left array and column `q` of the right block is column `i 1` of the right
    array. -/
theorem linPoint0 (A : S50000x32.Idx → EReal) (B : S32x64.Idx → EReal)
    (x0 : Vec Ideal S5000x32 .f32) (x1 : Vec Ideal S32x64 .f32) (p : Fin 5000) (q : Fin 64) (i : S50000x64.Idx)
    (h0 : ∀ k : Fin 32, x0 (ix2 p k) = A (ix2 (i 0) k)) (h1 : ∀ k : Fin 32, x1 (ix2 k q) = B (ix2 k (i 1))) :
    k0_pay1 x0 x1 (ix2 p q) = rowsByCols (M := 50000) (K := 32) (N := 64) A B i := by
  rw [linPayload0]
  exact rowsByCols_congr A B x0 x1 (ix2 p q) i h0 h1

/-- The block indices at a point, decided over the grid: the row-tiled windows are at block `(t, 0)`, the weight
    matrix at block `(0, 0)`. -/
theorem linIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two whole arrays. -/
theorem linFlushed0 (c : Dev nD) (t : Fin cfg0.N) :
    (dat0 (F := Ideal) V c).flushed 2 t = ((cfg0.win 2).blk t).view.read (Elt Ideal)
      (rowsByCols (M := 50000) (K := 32) (N := 64) (V c main_arg0) (V c main_arg3) : S50000x64.Idx → EReal) := by
  show (cfg0.win 2).cut (grid0.coords t) ((dat0 V c).after 2 t) = _
  rw [after0_2]
  unfold out0_2
  rw [View.canon_unit_zero linZeroOffsets]
  simp only [View.ld_unit_zero (S := S5000x32) linZeroOffsets, View.ld_unit_zero (S := S32x64) linZeroOffsets]
  obtain ⟨e0, e1, e2, e3, e4, e5⟩ := linIdx0 t
  funext j
  obtain ⟨p, q, rfl⟩ : ∃ (p : Fin 5000) (q : Fin 64), j = ix2 p q := ⟨j 0, j 1, eq_ix2 j⟩
  show k0_pay1 (iblk0 V c 0 t) (iblk0 V c 1 t) (ix2 p q)
    = rowsByCols (M := 50000) (K := 32) (N := 64) (V c main_arg0) (V c main_arg3) (((cfg0.win 2).blk t).view.emb (ix2 p q))
  refine linPoint0 (V c main_arg0) (V c main_arg3) (iblk0 V c 0 t) (iblk0 V c 1 t) p q _ (fun k => ?_) (fun k => ?_)
  · show V c main_arg0 (((cfg0.win 0).blk t).view.emb (ix2 p k))
      = V c main_arg0 (ix2 ((((cfg0.win 2).blk t).view.emb (ix2 p q)) 0) k)
    refine congrArg (V c main_arg0) (funext fun a => Fin.ext ?_)
    match a with
    | ⟨0, _⟩ => show win0_0.index t (0 : Fin 2) * 5000 + 1 * p.val = win0_2.index t (0 : Fin 2) * 5000 + 1 * p.val; rw [e0, e4]
    | ⟨1, _⟩ => show win0_0.index t (1 : Fin 2) * 32 + 1 * k.val = k.val; rw [e1]; omega
  · show V c main_arg3 (((cfg0.win 1).blk t).view.emb (ix2 k q))
      = V c main_arg3 (ix2 k ((((cfg0.win 2).blk t).view.emb (ix2 p q)) 1))
    refine congrArg (V c main_arg3) (funext fun a => Fin.ext ?_)
    match a with
    | ⟨0, _⟩ => show win0_1.index t (0 : Fin 2) * 32 + 1 * k.val = k.val; rw [e2]; omega
    | ⟨1, _⟩ => show win0_1.index t (1 : Fin 2) * 64 + 1 * q.val = win0_2.index t (1 : Fin 2) * 64 + 1 * q.val; rw [e3, e5]

/-- An entry of the array is in point `t`'s block iff each coordinate is in the block's range on its axis. -/
theorem linMem0 (t : Fin cfg0.N) (i : S50000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v30).slice (win0_2.rect t)).set ↔ _
  rw [View.set_slice_whole, Rect.mem_set_unit]
  exact Iff.rfl

/-- Every entry is in the block of the point its row falls to: row `r` is in block `r / 5000`. -/
theorem linCover0 (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ : ∃ t : Fin cfg0.N, t.val = (i 0).val / 5000 :=
    ⟨⟨(i 0).val / 5000, by show (i 0).val / 5000 < grid0.N; rw [N_0]; omega⟩, rfl⟩
  obtain ⟨e0, e1, e2, e3, e4, e5⟩ := linIdx0 t
  refine ⟨t, flush0_2 t, ?_⟩
  rw [linMem0]
  intro a
  match a with
  | ⟨0, _⟩ =>
    show win0_2.index t (0 : Fin 2) * 5000 ≤ (i 0).val ∧ (i 0).val < win0_2.index t (0 : Fin 2) * 5000 + 5000
    rw [e4, ht]; omega
  | ⟨1, _⟩ =>
    show win0_2.index t (1 : Fin 2) * 64 ≤ (i 1).val ∧ (i 1).val < win0_2.index t (1 : Fin 2) * 64 + 64
    rw [e5]; omega

/-- The result array after the ten points is the product of the two whole arrays. -/
theorem lin0 (c : Dev nD) : (dat0 (F := Ideal) V c).arrAt 2 cfg0.N
    = (rowsByCols (M := 50000) (K := 32) (N := 64) (V c main_arg0) (V c main_arg3) : S50000x64.Idx → EReal) :=
  (dat0 V c).arrAt_eq_of_cover 2 _ (fun t _ => linFlushed0 V c t) linCover0

/-! ## The second layer: `[50000, 64] · [64, 64]` -/

/-- The body's payload is the product of its two blocks: the cast to the same shape and the changes of format are
    the identity on the extended reals, and the accumulator is zero. -/
theorem linPayload2 (x0 : Vec Ideal S5000x64 .f32) (x1 : Vec Ideal S64x64 .f32) :
    k2_pay1 x0 x1 = (rowsByCols (M := 5000) (K := 64) (N := 64) x0 x1 : S5000x64.Idx → EReal) := by
  unfold k2_pay1
  refine (matmul_zero_eq dot_S5000x64_S64x64_S5000x64_1_0_0_1_n_n rfl none
    (truncf .bf16 (shapeCast S5000x64 x0 shapeCasts_S5000x64_S5000x64) bitsLt_bf16_f32) (truncf .bf16 x1 bitsLt_bf16_f32)).trans ?_
  rw [shapeCast_self]
  rfl

/-- The payload at entry `(p, q)` of the block is the whole product at an entry `i` of the array whenever row `p`
    of the left block is row `i 0` of the left array and column `q` of the right block is column `i 1` of the right
    array. -/
theorem linPoint2 (A : S50000x64.Idx → EReal) (B : S64x64.Idx → EReal)
    (x0 : Vec Ideal S5000x64 .f32) (x1 : Vec Ideal S64x64 .f32) (p : Fin 5000) (q : Fin 64) (i : S50000x64.Idx)
    (h0 : ∀ k : Fin 64, x0 (ix2 p k) = A (ix2 (i 0) k)) (h1 : ∀ k : Fin 64, x1 (ix2 k q) = B (ix2 k (i 1))) :
    k2_pay1 x0 x1 (ix2 p q) = rowsByCols (M := 50000) (K := 64) (N := 64) A B i := by
  rw [linPayload2]
  exact rowsByCols_congr A B x0 x1 (ix2 p q) i h0 h1

/-- The block indices at a point, decided over the grid: the row-tiled windows are at block `(t, 0)`, the weight
    matrix at block `(0, 0)`. -/
theorem linIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the two whole arrays. -/
theorem linFlushed2 (c : Dev nD) (t : Fin cfg2.N) :
    (dat2 (F := Ideal) V c).flushed 2 t = ((cfg2.win 2).blk t).view.read (Elt Ideal)
      (rowsByCols (M := 50000) (K := 64) (N := 64) (V c main_v45) (V c main_arg5) : S50000x64.Idx → EReal) := by
  show (cfg2.win 2).cut (grid2.coords t) ((dat2 V c).after 2 t) = _
  rw [after2_2]
  unfold out2_2
  rw [View.canon_unit_zero linZeroOffsets]
  simp only [View.ld_unit_zero (S := S5000x64) linZeroOffsets, View.ld_unit_zero (S := S64x64) linZeroOffsets]
  obtain ⟨e0, e1, e2, e3, e4, e5⟩ := linIdx2 t
  funext j
  obtain ⟨p, q, rfl⟩ : ∃ (p : Fin 5000) (q : Fin 64), j = ix2 p q := ⟨j 0, j 1, eq_ix2 j⟩
  show k2_pay1 (iblk2 V c 0 t) (iblk2 V c 1 t) (ix2 p q)
    = rowsByCols (M := 50000) (K := 64) (N := 64) (V c main_v45) (V c main_arg5) (((cfg2.win 2).blk t).view.emb (ix2 p q))
  refine linPoint2 (V c main_v45) (V c main_arg5) (iblk2 V c 0 t) (iblk2 V c 1 t) p q _ (fun k => ?_) (fun k => ?_)
  · show V c main_v45 (((cfg2.win 0).blk t).view.emb (ix2 p k))
      = V c main_v45 (ix2 ((((cfg2.win 2).blk t).view.emb (ix2 p q)) 0) k)
    refine congrArg (V c main_v45) (funext fun a => Fin.ext ?_)
    match a with
    | ⟨0, _⟩ => show win2_0.index t (0 : Fin 2) * 5000 + 1 * p.val = win2_2.index t (0 : Fin 2) * 5000 + 1 * p.val; rw [e0, e4]
    | ⟨1, _⟩ => show win2_0.index t (1 : Fin 2) * 64 + 1 * k.val = k.val; rw [e1]; omega
  · show V c main_arg5 (((cfg2.win 1).blk t).view.emb (ix2 k q))
      = V c main_arg5 (ix2 k ((((cfg2.win 2).blk t).view.emb (ix2 p q)) 1))
    refine congrArg (V c main_arg5) (funext fun a => Fin.ext ?_)
    match a with
    | ⟨0, _⟩ => show win2_1.index t (0 : Fin 2) * 64 + 1 * k.val = k.val; rw [e2]; omega
    | ⟨1, _⟩ => show win2_1.index t (1 : Fin 2) * 64 + 1 * q.val = win2_2.index t (1 : Fin 2) * 64 + 1 * q.val; rw [e3, e5]

/-- An entry of the array is in point `t`'s block iff each coordinate is in the block's range on its axis. -/
theorem linMem2 (t : Fin cfg2.N) (i : S50000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v46).slice (win2_2.rect t)).set ↔ _
  rw [View.set_slice_whole, Rect.mem_set_unit]
  exact Iff.rfl

/-- Every entry is in the block of the point its row falls to: row `r` is in block `r / 5000`. -/
theorem linCover2 (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ : ∃ t : Fin cfg2.N, t.val = (i 0).val / 5000 :=
    ⟨⟨(i 0).val / 5000, by show (i 0).val / 5000 < grid2.N; rw [N_2]; omega⟩, rfl⟩
  obtain ⟨e0, e1, e2, e3, e4, e5⟩ := linIdx2 t
  refine ⟨t, flush2_2 t, ?_⟩
  rw [linMem2]
  intro a
  match a with
  | ⟨0, _⟩ =>
    show win2_2.index t (0 : Fin 2) * 5000 ≤ (i 0).val ∧ (i 0).val < win2_2.index t (0 : Fin 2) * 5000 + 5000
    rw [e4, ht]; omega
  | ⟨1, _⟩ =>
    show win2_2.index t (1 : Fin 2) * 64 ≤ (i 1).val ∧ (i 1).val < win2_2.index t (1 : Fin 2) * 64 + 64
    rw [e5]; omega

/-- The result array after the ten points is the product of the two whole arrays. -/
theorem lin2 (c : Dev nD) : (dat2 (F := Ideal) V c).arrAt 2 cfg2.N
    = (rowsByCols (M := 50000) (K := 64) (N := 64) (V c main_v45) (V c main_arg5) : S50000x64.Idx → EReal) :=
  (dat2 V c).arrAt_eq_of_cover 2 _ (fun t _ => linFlushed2 V c t) linCover2

/-! ## The third layer: `[50000, 64] · [64, 64]` -/

/-- The body's payload is the product of its two blocks: the cast to the same shape and the changes of format are
    the identity on the extended reals, and the accumulator is zero. -/
theorem linPayload4 (x0 : Vec Ideal S5000x64 .f32) (x1 : Vec Ideal S64x64 .f32) :
    k4_pay1 x0 x1 = (rowsByCols (M := 5000) (K := 64) (N := 64) x0 x1 : S5000x64.Idx → EReal) := by
  unfold k4_pay1
  refine (matmul_zero_eq dot_S5000x64_S64x64_S5000x64_1_0_0_1_n_n rfl none
    (truncf .bf16 (shapeCast S5000x64 x0 shapeCasts_S5000x64_S5000x64) bitsLt_bf16_f32) (truncf .bf16 x1 bitsLt_bf16_f32)).trans ?_
  rw [shapeCast_self]
  rfl

/-- The payload at entry `(p, q)` of the block is the whole product at an entry `i` of the array whenever row `p`
    of the left block is row `i 0` of the left array and column `q` of the right block is column `i 1` of the right
    array. -/
theorem linPoint4 (A : S50000x64.Idx → EReal) (B : S64x64.Idx → EReal)
    (x0 : Vec Ideal S5000x64 .f32) (x1 : Vec Ideal S64x64 .f32) (p : Fin 5000) (q : Fin 64) (i : S50000x64.Idx)
    (h0 : ∀ k : Fin 64, x0 (ix2 p k) = A (ix2 (i 0) k)) (h1 : ∀ k : Fin 64, x1 (ix2 k q) = B (ix2 k (i 1))) :
    k4_pay1 x0 x1 (ix2 p q) = rowsByCols (M := 50000) (K := 64) (N := 64) A B i := by
  rw [linPayload4]
  exact rowsByCols_congr A B x0 x1 (ix2 p q) i h0 h1

/-- The block indices at a point, decided over the grid: the row-tiled windows are at block `(t, 0)`, the weight
    matrix at block `(0, 0)`. -/
theorem linIdx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the product of the two whole arrays. -/
theorem linFlushed4 (c : Dev nD) (t : Fin cfg4.N) :
    (dat4 (F := Ideal) V c).flushed 2 t = ((cfg4.win 2).blk t).view.read (Elt Ideal)
      (rowsByCols (M := 50000) (K := 64) (N := 64) (V c main_v61) (V c main_arg7) : S50000x64.Idx → EReal) := by
  show (cfg4.win 2).cut (grid4.coords t) ((dat4 V c).after 2 t) = _
  rw [after4_2]
  unfold out4_2
  rw [View.canon_unit_zero linZeroOffsets]
  simp only [View.ld_unit_zero (S := S5000x64) linZeroOffsets, View.ld_unit_zero (S := S64x64) linZeroOffsets]
  obtain ⟨e0, e1, e2, e3, e4, e5⟩ := linIdx4 t
  funext j
  obtain ⟨p, q, rfl⟩ : ∃ (p : Fin 5000) (q : Fin 64), j = ix2 p q := ⟨j 0, j 1, eq_ix2 j⟩
  show k4_pay1 (iblk4 V c 0 t) (iblk4 V c 1 t) (ix2 p q)
    = rowsByCols (M := 50000) (K := 64) (N := 64) (V c main_v61) (V c main_arg7) (((cfg4.win 2).blk t).view.emb (ix2 p q))
  refine linPoint4 (V c main_v61) (V c main_arg7) (iblk4 V c 0 t) (iblk4 V c 1 t) p q _ (fun k => ?_) (fun k => ?_)
  · show V c main_v61 (((cfg4.win 0).blk t).view.emb (ix2 p k))
      = V c main_v61 (ix2 ((((cfg4.win 2).blk t).view.emb (ix2 p q)) 0) k)
    refine congrArg (V c main_v61) (funext fun a => Fin.ext ?_)
    match a with
    | ⟨0, _⟩ => show win4_0.index t (0 : Fin 2) * 5000 + 1 * p.val = win4_2.index t (0 : Fin 2) * 5000 + 1 * p.val; rw [e0, e4]
    | ⟨1, _⟩ => show win4_0.index t (1 : Fin 2) * 64 + 1 * k.val = k.val; rw [e1]; omega
  · show V c main_arg7 (((cfg4.win 1).blk t).view.emb (ix2 k q))
      = V c main_arg7 (ix2 k ((((cfg4.win 2).blk t).view.emb (ix2 p q)) 1))
    refine congrArg (V c main_arg7) (funext fun a => Fin.ext ?_)
    match a with
    | ⟨0, _⟩ => show win4_1.index t (0 : Fin 2) * 64 + 1 * k.val = k.val; rw [e2]; omega
    | ⟨1, _⟩ => show win4_1.index t (1 : Fin 2) * 64 + 1 * q.val = win4_2.index t (1 : Fin 2) * 64 + 1 * q.val; rw [e3, e5]

/-- An entry of the array is in point `t`'s block iff each coordinate is in the block's range on its axis. -/
theorem linMem4 (t : Fin cfg4.N) (i : S50000x64.Idx) :
    i ∈ ((cfg4.win 2).blk t).view.set ↔ ∀ a : Fin 2, win4_2.index t a * S5000x64.size a ≤ (i a).val
      ∧ (i a).val < win4_2.index t a * S5000x64.size a + S5000x64.size a := by
  show i ∈ ((View.whole main_v62).slice (win4_2.rect t)).set ↔ _
  rw [View.set_slice_whole, Rect.mem_set_unit]
  exact Iff.rfl

/-- Every entry is in the block of the point its row falls to: row `r` is in block `r / 5000`. -/
theorem linCover4 (i : S50000x64.Idx) :
    ∃ t : Fin cfg4.N, (cfg4.win 2).flush t = true ∧ i ∈ ((cfg4.win 2).blk t).view.set := by
  have hi0 : (i 0).val < 50000 := (i 0).isLt
  have hi1 : (i 1).val < 64 := (i 1).isLt
  obtain ⟨t, ht⟩ : ∃ t : Fin cfg4.N, t.val = (i 0).val / 5000 :=
    ⟨⟨(i 0).val / 5000, by show (i 0).val / 5000 < grid4.N; rw [N_4]; omega⟩, rfl⟩
  obtain ⟨e0, e1, e2, e3, e4, e5⟩ := linIdx4 t
  refine ⟨t, flush4_2 t, ?_⟩
  rw [linMem4]
  intro a
  match a with
  | ⟨0, _⟩ =>
    show win4_2.index t (0 : Fin 2) * 5000 ≤ (i 0).val ∧ (i 0).val < win4_2.index t (0 : Fin 2) * 5000 + 5000
    rw [e4, ht]; omega
  | ⟨1, _⟩ =>
    show win4_2.index t (1 : Fin 2) * 64 ≤ (i 1).val ∧ (i 1).val < win4_2.index t (1 : Fin 2) * 64 + 64
    rw [e5]; omega

/-- The result array after the ten points is the product of the two whole arrays. -/
theorem lin4 (c : Dev nD) : (dat4 (F := Ideal) V c).arrAt 2 cfg4.N
    = (rowsByCols (M := 50000) (K := 64) (N := 64) (V c main_v61) (V c main_arg7) : S50000x64.Idx → EReal) :=
  (dat4 V c).arrAt_eq_of_cover 2 _ (fun t _ => linFlushed4 V c t) linCover4

end Cert.KernelIdeal.RegionValue

end
-- ==== Proof.RegionBias.lean ====
/-
  The three rectified bias additions, each as one function of whole arrays.

  Each of these layers adds a bias row (`1 × 64`) to every row of a 50000-row matrix and rectifies the sum, ten blocks
  of 5000 rows at a time: the point `t` of the grid reads rows `5000 t … 5000 t + 4999` of the matrix and the whole
  bias row, and writes `max (a + b) 0` entry by entry to the same rows of the result. The operation is entry by
  entry, so the result array after the ten points is `biasRelu` of the two whole arrays. Per layer: the body's payload
  is `biasRelu` of its two blocks (`biasPayload`); read at an entry of the block it is `biasRelu` of the whole arrays
  at the entry's place in the array, given that the block's entry is the array's there and the bias block is the bias
  row (`biasPoint`); the block indices of the three windows at a point, decided over the grid (`biasIdx`); what a
  point writes back is its block of `biasRelu` of the whole arrays (`biasFlushed`); an entry is in a point's block
  iff its row is in the point's range of rows (`biasMem`); every row `r` is in the block of point `r / 5000`
  (`biasCover`); so the array ends holding `biasRelu` of the whole arrays (`bias`).
-/
import proofs.«122198_j40690520163162_1_alg».proof.Proof.Gen.KernelIdeal.Frame
import proofs.«122198_j40690520163162_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.RegionValue

open Idealize.ShloMosaic Idealize.ShloMosaic.TcCoe Idealize.SL.Sem Idealize.ShloMosaic.ValueIdx
open Cert.KernelIdeal Cert.KernelIdeal.Gen Cert.Lib.PlainDot Cert.Spec

variable (V : (c : Dev nD) → (b : Ref sig .tc) → Buf (Elt Ideal) ((c : Thread nD τ).loc b))

/-- The zero offsets of a whole-buffer access, however spelt. -/
theorem biasZeroOffsets : (![0, 0] : Fin 2 → Nat) = fun _ => 0 := funext fun a => by fin_cases a <;> rfl

/-! ## The first bias and rectification -/

/-- The body's payload is the rectified sum of its block and the bias row: the casts to the same shape are the
    identity, the broadcast of the `1 × 64` block reads its one row at every row, and the zero word is the real `0`. -/
theorem biasPayload1 (x0 : Vec Ideal S5000x64 .f32) (x1 : Vec Ideal S1x64 .f32) :
    k1_pay1 x0 x1 = (biasRelu (n := 5000) (c := 64) x0 x1 : S5000x64.Idx → EReal) := by
  unfold k1_pay1
  funext j
  obtain ⟨p, q, rfl⟩ : ∃ (p : Fin 5000) (q : Fin 64), j = ix2 p q := ⟨j 0, j 1, eq_ix2 j⟩
  show max ((shapeCast S5000x64 x0 shapeCasts_S5000x64_S5000x64 (ix2 p q) : EReal)
      + broadcastTo S5000x64 (shapeCast S1x64 x1 shapeCasts_S1x64_S1x64) broadcasts_S1x64_S5000x64 (ix2 p q))
      (Ideal.ofBits .f32 0x00000000#32) = max ((x0 (ix2 p q) : EReal) + x1 (ix2 (0 : Fin 1) q)) 0
  rw [shapeCast_self, shapeCast_self, broadcastTo_1b_ab_apply, Ideal.ofBits_zero_f32]

/-- The payload at entry `(p, q)` of the block is `biasRelu` of the whole arrays at an entry `i` of the array whenever
    the block's entry `(p, q)` is the array's entry `i` and the bias block at column `q` is the bias row at column
    `i 1`. -/
theorem biasPoint1 (A : S50000x64.Idx → EReal) (B : S1x64.Idx → EReal)
    (x0 : Vec Ideal S5000x64 .f32) (x1 : Vec Ideal S1x64 .f32) (p : Fin 5000) (q : Fin 64) (i : S50000x64.Idx)
    (h0 : x0 (ix2 p q) = A i) (h1 : x1 (ix2 (0 : Fin 1) q) = B (ix2 (0 : Fin 1) (i 1))) :
    k1_pay1 x0 x1 (ix2 p q) = biasRelu (n := 50000) (c := 64) A B i := by
  rw [biasPayload1]
  show max ((x0 (ix2 p q) : EReal) + x1 (ix2 (0 : Fin 1) q)) 0 = max (A i + B (ix2 (0 : Fin 1) (i 1))) 0
  rw [h0, h1]

/-- The block indices at a point, decided over the grid: the row-tiled windows are at block `(t, 0)`, the bias row
    at block `(0, 0)`. -/
theorem biasIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `biasRelu` of the two whole arrays. -/
theorem biasFlushed1 (c : Dev nD) (t : Fin cfg1.N) :
    (dat1 (F := Ideal) V c).flushed 2 t = ((cfg1.win 2).blk t).view.read (Elt Ideal)
      (biasRelu (n := 50000) (c := 64) (V c main_v43) (V c main_v44) : S50000x64.Idx → EReal) := by
  show (cfg1.win 2).cut (grid1.coords t) ((dat1 V c).after 2 t) = _
  rw [after1_2]
  unfold out1_2
  rw [View.canon_unit_zero biasZeroOffsets]
  simp only [View.ld_unit_zero (S := S5000x64) biasZeroOffsets, View.ld_unit_zero (S := S1x64) biasZeroOffsets]
  obtain ⟨e0, e1, e2, e3, e4, e5⟩ := biasIdx1 t
  funext j
  obtain ⟨p, q, rfl⟩ : ∃ (p : Fin 5000) (q : Fin 64), j = ix2 p q := ⟨j 0, j 1, eq_ix2 j⟩
  show k1_pay1 (iblk1 V c 0 t) (iblk1 V c 1 t) (ix2 p q)
    = biasRelu (n := 50000) (c := 64) (V c main_v43) (V c main_v44) (((cfg1.win 2).blk t).view.emb (ix2 p q))
  refine biasPoint1 (V c main_v43) (V c main_v44) (iblk1 V c 0 t) (iblk1 V c 1 t) p q _ ?_ ?_
  · show V c main_v43 (((cfg1.win 0).blk t).view.emb (ix2 p q))
      = V c main_v43 (((cfg1.win 2).blk t).view.emb (ix2 p q))
    refine congrArg (V c main_v43) (funext fun a => Fin.ext ?_)
    match a with
    | ⟨0, _⟩ => show win1_0.index t (0 : Fin 2) * 5000 + 1 * p.val = win1_2.index t (0 : Fin 2) * 5000 + 1 * p.val; rw [e0, e4]
    | ⟨1, _⟩ => show win1_0.index t (1 : Fin 2) * 64 + 1 * q.val = win1_2.index t (1 : Fin 2) * 64 + 1 * q.val; rw [e1, e5]
  · show V c main_v44 (((cfg1.win 1).blk t).view.emb (ix2 (0 : Fin 1) q))
      = V c main_v44 (ix2 (0 : Fin 1) ((((cfg1.win 2).blk t).view.emb (ix2 p q)) 1))
    refine congrArg (V c main_v44) (funext fun a => Fin.ext ?_)
    match a with
    | ⟨0, _⟩ => show win1_1.index t (0 : Fin 2) * 1 + 1 * 0 = 0; rw [e2]
    | ⟨1, _⟩ => show win1_1.index t (1 : Fin 2) * 64 + 1 * q.val = win1_2.index t (1 : Fin 2) * 64 + 1 * q.val; rw [e3, e5]

/-- An entry of the array is in point `t`'s block iff each coordinate is in the block's range on its axis. -/
theorem biasMem1 (t : Fin cfg1.N) (i : S50000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v45).slice (win1_2.rect t)).set ↔ _
  rw [View.set_slice_whole, Rect.mem_set_unit]
  exact Iff.rfl

/-- Every entry is in the block of the point its row falls to: row `r` is in block `r / 5000`. -/
theorem biasCover1 (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ : ∃ t : Fin cfg1.N, t.val = (i 0).val / 5000 :=
    ⟨⟨(i 0).val / 5000, by show (i 0).val / 5000 < grid1.N; rw [N_1]; omega⟩, rfl⟩
  obtain ⟨e0, e1, e2, e3, e4, e5⟩ := biasIdx1 t
  refine ⟨t, flush1_2 t, ?_⟩
  rw [biasMem1]
  intro a
  match a with
  | ⟨0, _⟩ =>
    show win1_2.index t (0 : Fin 2) * 5000 ≤ (i 0).val ∧ (i 0).val < win1_2.index t (0 : Fin 2) * 5000 + 5000
    rw [e4, ht]; omega
  | ⟨1, _⟩ =>
    show win1_2.index t (1 : Fin 2) * 64 ≤ (i 1).val ∧ (i 1).val < win1_2.index t (1 : Fin 2) * 64 + 64
    rw [e5]; omega

/-- The result array after the ten points is `biasRelu` of the two whole arrays. -/
theorem bias1 (c : Dev nD) : (dat1 (F := Ideal) V c).arrAt 2 cfg1.N
    = (biasRelu (n := 50000) (c := 64) (V c main_v43) (V c main_v44) : S50000x64.Idx → EReal) :=
  (dat1 V c).arrAt_eq_of_cover 2 _ (fun t _ => biasFlushed1 V c t) biasCover1

/-! ## The second bias and rectification -/

/-- The body's payload is the rectified sum of its block and the bias row: the casts to the same shape are the
    identity, the broadcast of the `1 × 64` block reads its one row at every row, and the zero word is the real `0`. -/
theorem biasPayload3 (x0 : Vec Ideal S5000x64 .f32) (x1 : Vec Ideal S1x64 .f32) :
    k3_pay1 x0 x1 = (biasRelu (n := 5000) (c := 64) x0 x1 : S5000x64.Idx → EReal) := by
  unfold k3_pay1
  funext j
  obtain ⟨p, q, rfl⟩ : ∃ (p : Fin 5000) (q : Fin 64), j = ix2 p q := ⟨j 0, j 1, eq_ix2 j⟩
  show max ((shapeCast S5000x64 x0 shapeCasts_S5000x64_S5000x64 (ix2 p q) : EReal)
      + broadcastTo S5000x64 (shapeCast S1x64 x1 shapeCasts_S1x64_S1x64) broadcasts_S1x64_S5000x64 (ix2 p q))
      (Ideal.ofBits .f32 0x00000000#32) = max ((x0 (ix2 p q) : EReal) + x1 (ix2 (0 : Fin 1) q)) 0
  rw [shapeCast_self, shapeCast_self, broadcastTo_1b_ab_apply, Ideal.ofBits_zero_f32]

/-- The payload at entry `(p, q)` of the block is `biasRelu` of the whole arrays at an entry `i` of the array whenever
    the block's entry `(p, q)` is the array's entry `i` and the bias block at column `q` is the bias row at column
    `i 1`. -/
theorem biasPoint3 (A : S50000x64.Idx → EReal) (B : S1x64.Idx → EReal)
    (x0 : Vec Ideal S5000x64 .f32) (x1 : Vec Ideal S1x64 .f32) (p : Fin 5000) (q : Fin 64) (i : S50000x64.Idx)
    (h0 : x0 (ix2 p q) = A i) (h1 : x1 (ix2 (0 : Fin 1) q) = B (ix2 (0 : Fin 1) (i 1))) :
    k3_pay1 x0 x1 (ix2 p q) = biasRelu (n := 50000) (c := 64) A B i := by
  rw [biasPayload3]
  show max ((x0 (ix2 p q) : EReal) + x1 (ix2 (0 : Fin 1) q)) 0 = max (A i + B (ix2 (0 : Fin 1) (i 1))) 0
  rw [h0, h1]

/-- The block indices at a point, decided over the grid: the row-tiled windows are at block `(t, 0)`, the bias row
    at block `(0, 0)`. -/
theorem biasIdx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of `biasRelu` of the two whole arrays. -/
theorem biasFlushed3 (c : Dev nD) (t : Fin cfg3.N) :
    (dat3 (F := Ideal) V c).flushed 2 t = ((cfg3.win 2).blk t).view.read (Elt Ideal)
      (biasRelu (n := 50000) (c := 64) (V c main_v59) (V c main_v60) : S50000x64.Idx → EReal) := by
  show (cfg3.win 2).cut (grid3.coords t) ((dat3 V c).after 2 t) = _
  rw [after3_2]
  unfold out3_2
  rw [View.canon_unit_zero biasZeroOffsets]
  simp only [View.ld_unit_zero (S := S5000x64) biasZeroOffsets, View.ld_unit_zero (S := S1x64) biasZeroOffsets]
  obtain ⟨e0, e1, e2, e3, e4, e5⟩ := biasIdx3 t
  funext j
  obtain ⟨p, q, rfl⟩ : ∃ (p : Fin 5000) (q : Fin 64), j = ix2 p q := ⟨j 0, j 1, eq_ix2 j⟩
  show k3_pay1 (iblk3 V c 0 t) (iblk3 V c 1 t) (ix2 p q)
    = biasRelu (n := 50000) (c := 64) (V c main_v59) (V c main_v60) (((cfg3.win 2).blk t).view.emb (ix2 p q))
  refine biasPoint3 (V c main_v59) (V c main_v60) (iblk3 V c 0 t) (iblk3 V c 1 t) p q _ ?_ ?_
  · show V c main_v59 (((cfg3.win 0).blk t).view.emb (ix2 p q))
      = V c main_v59 (((cfg3.win 2).blk t).view.emb (ix2 p q))
    refine congrArg (V c main_v59) (funext fun a => Fin.ext ?_)
    match a with
    | ⟨0, _⟩ => show win3_0.index t (0 : Fin 2) * 5000 + 1 * p.val = win3_2.index t (0 : Fin 2) * 5000 + 1 * p.val; rw [e0, e4]
    | ⟨1, _⟩ => show win3_0.index t (1 : Fin 2) * 64 + 1 * q.val = win3_2.index t (1 : Fin 2) * 64 + 1 * q.val; rw [e1, e5]
  · show V c main_v60 (((cfg3.win 1).blk t).view.emb (ix2 (0 : Fin 1) q))
      = V c main_v60 (ix2 (0 : Fin 1) ((((cfg3.win 2).blk t).view.emb (ix2 p q)) 1))
    refine congrArg (V c main_v60) (funext fun a => Fin.ext ?_)
    match a with
    | ⟨0, _⟩ => show win3_1.index t (0 : Fin 2) * 1 + 1 * 0 = 0; rw [e2]
    | ⟨1, _⟩ => show win3_1.index t (1 : Fin 2) * 64 + 1 * q.val = win3_2.index t (1 : Fin 2) * 64 + 1 * q.val; rw [e3, e5]

/-- An entry of the array is in point `t`'s block iff each coordinate is in the block's range on its axis. -/
theorem biasMem3 (t : Fin cfg3.N) (i : S50000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v61).slice (win3_2.rect t)).set ↔ _
  rw [View.set_slice_whole, Rect.mem_set_unit]
  exact Iff.rfl

/-- Every entry is in the block of the point its row falls to: row `r` is in block `r / 5000`. -/
theorem biasCover3 (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ : ∃ t : Fin cfg3.N, t.val = (i 0).val / 5000 :=
    ⟨⟨(i 0).val / 5000, by show (i 0).val / 5000 < grid3.N; rw [N_3]; omega⟩, rfl⟩
  obtain ⟨e0, e1, e2, e3, e4, e5⟩ := biasIdx3 t
  refine ⟨t, flush3_2 t, ?_⟩
  rw [biasMem3]
  intro a
  match a with
  | ⟨0, _⟩ =>
    show win3_2.index t (0 : Fin 2) * 5000 ≤ (i 0).val ∧ (i 0).val < win3_2.index t (0 : Fin 2) * 5000 + 5000
    rw [e4, ht]; omega
  | ⟨1, _⟩ =>
    show win3_2.index t (1 : Fin 2) * 64 ≤ (i 1).val ∧ (i 1).val < win3_2.index t (1 : Fin 2) * 64 + 64
    rw [e5]; omega

/-- The result array after the ten points is `biasRelu` of the two whole arrays. -/
theorem bias3 (c : Dev nD) : (dat3 (F := Ideal) V c).arrAt 2 cfg3.N
    = (biasRelu (n := 50000) (c := 64) (V c main_v59) (V c main_v60) : S50000x64.Idx → EReal) :=
  (dat3 V c).arrAt_eq_of_cover 2 _ (fun t _ => biasFlushed3 V c t) biasCover3

/-! ## The third bias and rectification -/

/-- The body's payload is the rectified sum of its block and the bias row: the casts to the same shape are the
    identity, the broadcast of the `1 × 64` block reads its one row at every row, and the zero word is the real `0`. -/
theorem biasPayload5 (x0 : Vec Ideal S5000x64 .f32) (x1 : Vec Ideal S1x64 .f32) :
    k5_pay1 x0 x1 = (biasRelu (n := 5000) (c := 64) x0 x1 : S5000x64.Idx → EReal) := by
  unfold k5_pay1
  funext j
  obtain ⟨p, q, rfl⟩ : ∃ (p : Fin 5000) (q : Fin 64), j = ix2 p q := ⟨j 0, j 1, eq_ix2 j⟩
  show max ((shapeCast S5000x64 x0 shapeCasts_S5000x64_S5000x64 (ix2 p q) : EReal)
      + broadcastTo S5000x64 (shapeCast S1x64 x1 shapeCasts_S1x64_S1x64) broadcasts_S1x64_S5000x64 (ix2 p q))
      (Ideal.ofBits .f32 0x00000000#32) = max ((x0 (ix2 p q) : EReal) + x1 (ix2 (0 : Fin 1) q)) 0
  rw [shapeCast_self, shapeCast_self, broadcastTo_1b_ab_apply, Ideal.ofBits_zero_f32]

/-- The payload at entry `(p, q)` of the block is `biasRelu` of the whole arrays at an entry `i` of the array whenever
    the block's entry `(p, q)` is the array's entry `i` and the bias block at column `q` is the bias row at column
    `i 1`. -/
theorem biasPoint5 (A : S50000x64.Idx → EReal) (B : S1x64.Idx → EReal)
    (x0 : Vec Ideal S5000x64 .f32) (x1 : Vec Ideal S1x64 .f32) (p : Fin 5000) (q : Fin 64) (i : S50000x64.Idx)
    (h0 : x0 (ix2 p q) = A i) (h1 : x1 (ix2 (0 : Fin 1) q) = B (ix2 (0 : Fin 1) (i 1))) :
    k5_pay1 x0 x1 (ix2 p q) = biasRelu (n := 50000) (c := 64) A B i := by
  rw [biasPayload5]
  show max ((x0 (ix2 p q) : EReal) + x1 (ix2 (0 : Fin 1) q)) 0 = max (A i + B (ix2 (0 : Fin 1) (i 1))) 0
  rw [h0, h1]

/-- The block indices at a point, decided over the grid: the row-tiled windows are at block `(t, 0)`, the bias row
    at block `(0, 0)`. -/
theorem biasIdx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of `biasRelu` of the two whole arrays. -/
theorem biasFlushed5 (c : Dev nD) (t : Fin cfg5.N) :
    (dat5 (F := Ideal) V c).flushed 2 t = ((cfg5.win 2).blk t).view.read (Elt Ideal)
      (biasRelu (n := 50000) (c := 64) (V c main_v75) (V c main_v76) : S50000x64.Idx → EReal) := by
  show (cfg5.win 2).cut (grid5.coords t) ((dat5 V c).after 2 t) = _
  rw [after5_2]
  unfold out5_2
  rw [View.canon_unit_zero biasZeroOffsets]
  simp only [View.ld_unit_zero (S := S5000x64) biasZeroOffsets, View.ld_unit_zero (S := S1x64) biasZeroOffsets]
  obtain ⟨e0, e1, e2, e3, e4, e5⟩ := biasIdx5 t
  funext j
  obtain ⟨p, q, rfl⟩ : ∃ (p : Fin 5000) (q : Fin 64), j = ix2 p q := ⟨j 0, j 1, eq_ix2 j⟩
  show k5_pay1 (iblk5 V c 0 t) (iblk5 V c 1 t) (ix2 p q)
    = biasRelu (n := 50000) (c := 64) (V c main_v75) (V c main_v76) (((cfg5.win 2).blk t).view.emb (ix2 p q))
  refine biasPoint5 (V c main_v75) (V c main_v76) (iblk5 V c 0 t) (iblk5 V c 1 t) p q _ ?_ ?_
  · show V c main_v75 (((cfg5.win 0).blk t).view.emb (ix2 p q))
      = V c main_v75 (((cfg5.win 2).blk t).view.emb (ix2 p q))
    refine congrArg (V c main_v75) (funext fun a => Fin.ext ?_)
    match a with
    | ⟨0, _⟩ => show win5_0.index t (0 : Fin 2) * 5000 + 1 * p.val = win5_2.index t (0 : Fin 2) * 5000 + 1 * p.val; rw [e0, e4]
    | ⟨1, _⟩ => show win5_0.index t (1 : Fin 2) * 64 + 1 * q.val = win5_2.index t (1 : Fin 2) * 64 + 1 * q.val; rw [e1, e5]
  · show V c main_v76 (((cfg5.win 1).blk t).view.emb (ix2 (0 : Fin 1) q))
      = V c main_v76 (ix2 (0 : Fin 1) ((((cfg5.win 2).blk t).view.emb (ix2 p q)) 1))
    refine congrArg (V c main_v76) (funext fun a => Fin.ext ?_)
    match a with
    | ⟨0, _⟩ => show win5_1.index t (0 : Fin 2) * 1 + 1 * 0 = 0; rw [e2]
    | ⟨1, _⟩ => show win5_1.index t (1 : Fin 2) * 64 + 1 * q.val = win5_2.index t (1 : Fin 2) * 64 + 1 * q.val; rw [e3, e5]

/-- An entry of the array is in point `t`'s block iff each coordinate is in the block's range on its axis. -/
theorem biasMem5 (t : Fin cfg5.N) (i : S50000x64.Idx) :
    i ∈ ((cfg5.win 2).blk t).view.set ↔ ∀ a : Fin 2, win5_2.index t a * S5000x64.size a ≤ (i a).val
      ∧ (i a).val < win5_2.index t a * S5000x64.size a + S5000x64.size a := by
  show i ∈ ((View.whole main_v77).slice (win5_2.rect t)).set ↔ _
  rw [View.set_slice_whole, Rect.mem_set_unit]
  exact Iff.rfl

/-- Every entry is in the block of the point its row falls to: row `r` is in block `r / 5000`. -/
theorem biasCover5 (i : S50000x64.Idx) :
    ∃ t : Fin cfg5.N, (cfg5.win 2).flush t = true ∧ i ∈ ((cfg5.win 2).blk t).view.set := by
  have hi0 : (i 0).val < 50000 := (i 0).isLt
  have hi1 : (i 1).val < 64 := (i 1).isLt
  obtain ⟨t, ht⟩ : ∃ t : Fin cfg5.N, t.val = (i 0).val / 5000 :=
    ⟨⟨(i 0).val / 5000, by show (i 0).val / 5000 < grid5.N; rw [N_5]; omega⟩, rfl⟩
  obtain ⟨e0, e1, e2, e3, e4, e5⟩ := biasIdx5 t
  refine ⟨t, flush5_2 t, ?_⟩
  rw [biasMem5]
  intro a
  match a with
  | ⟨0, _⟩ =>
    show win5_2.index t (0 : Fin 2) * 5000 ≤ (i 0).val ∧ (i 0).val < win5_2.index t (0 : Fin 2) * 5000 + 5000
    rw [e4, ht]; omega
  | ⟨1, _⟩ =>
    show win5_2.index t (1 : Fin 2) * 64 ≤ (i 1).val ∧ (i 1).val < win5_2.index t (1 : Fin 2) * 64 + 64
    rw [e5]; omega

/-- The result array after the ten points is `biasRelu` of the two whole arrays. -/
theorem bias5 (c : Dev nD) : (dat5 (F := Ideal) V c).arrAt 2 cfg5.N
    = (biasRelu (n := 50000) (c := 64) (V c main_v75) (V c main_v76) : S50000x64.Idx → EReal) :=
  (dat5 V c).arrAt_eq_of_cover 2 _ (fun t _ => biasFlushed5 V c t) biasCover5

end Cert.KernelIdeal.RegionValue

end
-- ==== Proof.RegionHead.lean ====
/-
  The classifier head, region 6 of the program, as a function of whole arrays.

  The region has one grid point and every window's block is its whole array. Its body stores one payload:
  the pooled features times the first weight matrix, plus the first bias row, rectified, times the second weight
  matrix, plus the second bias row. At the exact instance the two format changes are the identity and each matrix
  product into a zero accumulator is the plain product, so the payload is the specification's head of its five
  operands (head_payload). Each input block read at the one point is the array itself, the one write-back covers the
  output array, and so the output array after the region is the head of the five arrays as the region finds them (head6).
-/
import proofs.«122198_j40690520163162_1_alg».proof.Proof.Gen.KernelIdeal.Frame
import proofs.«122198_j40690520163162_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.RegionValue

open Idealize.ShloMosaic Idealize.ShloMosaic.TcCoe Idealize.SL.Sem Idealize.ShloMosaic.ValueIdx
open Cert.KernelIdeal Cert.KernelIdeal.Gen Cert.Lib.PlainDot Cert.Spec

variable (V : (c : Dev nD) → (b : Ref sig .tc) → Buf (Elt Ideal) ((c : Thread nD τ).loc b))

/-- The head's payload is the head of its five operands: each product into the zero accumulator is the plain product
    of the whole arrays, the format changes are the identity on extended reals, the bias row is read at row 0, and
    the rectification is the maximum with 0. The second product's left operand is compared entry by entry along the
    row the result's entry reads. -/
theorem head_payload (p : FVec Ideal S2048x64 .f32) (w1 : FVec Ideal S64x64 .f32) (b1 : FVec Ideal S1x64 .f32)
    (w2 : FVec Ideal S64x2 .f32) (b2 : FVec Ideal S1x2 .f32) :
    k6_pay1 (F := Ideal) p w1 b1 w2 b2
      = (head (g := 2048) (f := 64) (h := 64) (o := 2) p w1 b1 w2 b2 : S2048x2.Idx → EReal) := by
  unfold k6_pay1
  dsimp only [Idealize.ShloMosaic.matmul]
  rw [matmul_zero_eq dot_S2048x64_S64x64_S2048x64_1_0_0_1_n_n rfl, matmul_zero_eq dot_S2048x64_S64x2_S2048x2_1_0_0_1_n_n rfl]
  simp only [shapeCast_self]
  funext j
  obtain ⟨a, b, rfl⟩ : ∃ (a : Fin 2048) (b : Fin 2), j = ix2 a b := ⟨j 0, j 1, eq_ix2 j⟩
  rw [addf_apply, broadcastTo_1b_ab_apply]
  refine congrArg (· + b2 (ix2 (0 : Fin 1) b)) (rowsByCols_congr _ _ _ _ _ _ (fun k => ?_) (fun k => rfl))
  show max (rowsByCols p w1 (ix2 a k) + broadcastTo S2048x64 b1 broadcasts_S1x64_S2048x64 (ix2 a k)) (Ideal.ofBits .f32 0x00000000#32)
    = max (rowsByCols p w1 (ix2 a k) + b1 (ix2 (0 : Fin 1) k)) 0
  rw [broadcastTo_1b_ab_apply, Ideal.ofBits_zero_f32]

/-- The origin of a rank-2 array, as the function the library's whole-block lemmas expect. -/
theorem origin6 : (![0, 0] : Fin 2 → Nat) = fun _ => 0 := funext fun a => by fin_cases a <;> rfl

/-- The printed index maps of the head's six windows, decided over its one-point grid: every block index is (0, 0). -/
theorem block_index6 : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 ∧ True :=
  (by decide +kernel : ∀ t : Fin grid6.N, _)

/-- Window 0's one block is its whole array: the block sits at offset 0 on both axes. -/
theorem block6_0 (c : Dev nD) (t : Fin cfg6.N) :
    (iblk6 V c 0 t : S2048x64.Idx → EReal) = V c main_v89 := by
  obtain ⟨e0, e1, e2, e3, e4, e5, e6, e7, e8, e9, -⟩ := block_index6 t
  unfold iblk6
  funext y
  rw [View.read_apply]
  show V c main_v89 (((cfg6.win 0).blk t).view.emb y) = V c main_v89 y
  refine congrArg (V c main_v89) (funext fun a => Fin.ext ?_)
  match a with
  | ⟨0, _⟩ => show win6_0.index t (0 : Fin 2) * 2048 + 1 * (y 0).val = (y 0).val; omega
  | ⟨1, _⟩ => show win6_0.index t (1 : Fin 2) * 64 + 1 * (y 1).val = (y 1).val; omega

/-- Window 1's one block is its whole array: the block sits at offset 0 on both axes. -/
theorem block6_1 (c : Dev nD) (t : Fin cfg6.N) :
    (iblk6 V c 1 t : S64x64.Idx → EReal) = V c main_arg9 := by
  obtain ⟨e0, e1, e2, e3, e4, e5, e6, e7, e8, e9, -⟩ := block_index6 t
  unfold iblk6
  funext y
  rw [View.read_apply]
  show V c main_arg9 (((cfg6.win 1).blk t).view.emb y) = V c main_arg9 y
  refine congrArg (V c main_arg9) (funext fun a => Fin.ext ?_)
  match a with
  | ⟨0, _⟩ => show win6_1.index t (0 : Fin 2) * 64 + 1 * (y 0).val = (y 0).val; omega
  | ⟨1, _⟩ => show win6_1.index t (1 : Fin 2) * 64 + 1 * (y 1).val = (y 1).val; omega

/-- Window 2's one block is its whole array: the block sits at offset 0 on both axes. -/
theorem block6_2 (c : Dev nD) (t : Fin cfg6.N) :
    (iblk6 V c 2 t : S1x64.Idx → EReal) = V c main_v90 := by
  obtain ⟨e0, e1, e2, e3, e4, e5, e6, e7, e8, e9, -⟩ := block_index6 t
  unfold iblk6
  funext y
  rw [View.read_apply]
  show V c main_v90 (((cfg6.win 2).blk t).view.emb y) = V c main_v90 y
  refine congrArg (V c main_v90) (funext fun a => Fin.ext ?_)
  match a with
  | ⟨0, _⟩ => show win6_2.index t (0 : Fin 2) * 1 + 1 * (y 0).val = (y 0).val; omega
  | ⟨1, _⟩ => show win6_2.index t (1 : Fin 2) * 64 + 1 * (y 1).val = (y 1).val; omega

/-- Window 3's one block is its whole array: the block sits at offset 0 on both axes. -/
theorem block6_3 (c : Dev nD) (t : Fin cfg6.N) :
    (iblk6 V c 3 t : S64x2.Idx → EReal) = V c main_arg11 := by
  obtain ⟨e0, e1, e2, e3, e4, e5, e6, e7, e8, e9, -⟩ := block_index6 t
  unfold iblk6
  funext y
  rw [View.read_apply]
  show V c main_arg11 (((cfg6.win 3).blk t).view.emb y) = V c main_arg11 y
  refine congrArg (V c main_arg11) (funext fun a => Fin.ext ?_)
  match a with
  | ⟨0, _⟩ => show win6_3.index t (0 : Fin 2) * 64 + 1 * (y 0).val = (y 0).val; omega
  | ⟨1, _⟩ => show win6_3.index t (1 : Fin 2) * 2 + 1 * (y 1).val = (y 1).val; omega

/-- Window 4's one block is its whole array: the block sits at offset 0 on both axes. -/
theorem block6_4 (c : Dev nD) (t : Fin cfg6.N) :
    (iblk6 V c 4 t : S1x2.Idx → EReal) = V c main_v91 := by
  obtain ⟨e0, e1, e2, e3, e4, e5, e6, e7, e8, e9, -⟩ := block_index6 t
  unfold iblk6
  funext y
  rw [View.read_apply]
  show V c main_v91 (((cfg6.win 4).blk t).view.emb y) = V c main_v91 y
  refine congrArg (V c main_v91) (funext fun a => Fin.ext ?_)
  match a with
  | ⟨0, _⟩ => show win6_4.index t (0 : Fin 2) * 1 + 1 * (y 0).val = (y 0).val; omega
  | ⟨1, _⟩ => show win6_4.index t (1 : Fin 2) * 2 + 1 * (y 1).val = (y 1).val; omega

/-- What the one point writes back is the head of the five arrays as the region finds them (read through the output
    window's block, which is the whole array). -/
theorem written6 (c : Dev nD) (t : Fin cfg6.N) :
    (dat6 (F := Ideal) V c).flushed 5 t = ((cfg6.win 5).blk t).view.read (Elt Ideal) (head (g := 2048) (f := 64) (h := 64) (o := 2) (V c main_v89) (V c main_arg9) (V c main_v90) (V c main_arg11) (V c main_v91) : S2048x2.Idx → EReal) := by
  show (cfg6.win 5).cut (grid6.coords t) ((dat6 V c).after 5 t) = _
  rw [after6_5]
  unfold out6_5
  rw [View.canon_unit_zero origin6]
  simp only [View.ld_unit_zero (S := S2048x64) origin6, View.ld_unit_zero (S := S64x64) origin6,
    View.ld_unit_zero (S := S1x64) origin6, View.ld_unit_zero (S := S64x2) origin6, View.ld_unit_zero (S := S1x2) origin6]
  rw [head_payload, block6_0 V c t, block6_1 V c t, block6_2 V c t, block6_3 V c t, block6_4 V c t]
  obtain ⟨e0, e1, e2, e3, e4, e5, e6, e7, e8, e9, e10, e11, -⟩ := block_index6 t
  funext y
  show (head (g := 2048) (f := 64) (h := 64) (o := 2) (V c main_v89) (V c main_arg9) (V c main_v90) (V c main_arg11) (V c main_v91) : S2048x2.Idx → EReal) y = (head (g := 2048) (f := 64) (h := 64) (o := 2) (V c main_v89) (V c main_arg9) (V c main_v90) (V c main_arg11) (V c main_v91) : S2048x2.Idx → EReal) (((cfg6.win 5).blk t).view.emb y)
  refine congrArg _ (funext fun a => Fin.ext ?_)
  match a with
  | ⟨0, _⟩ => show (y 0).val = win6_5.index t (0 : Fin 2) * 2048 + 1 * (y 0).val; omega
  | ⟨1, _⟩ => show (y 1).val = win6_5.index t (1 : Fin 2) * 2 + 1 * (y 1).val; omega

/-- Every index of the output array is in the one point's block. -/
theorem covered6 (i : S2048x2.Idx) :
    ∃ t : Fin cfg6.N, (cfg6.win 5).flush t = true ∧ i ∈ ((cfg6.win 5).blk t).view.set := by
  refine ⟨t6_0, flush6_5 t6_0, ?_⟩
  show i ∈ ((View.whole main_v92).slice (win6_5.rect t6_0)).set
  rw [View.set_slice_whole, Rect.mem_set_unit]
  obtain ⟨e0, e1, e2, e3, e4, e5, e6, e7, e8, e9, e10, e11, -⟩ := block_index6 t6_0
  have h0 : (i 0).val < 2048 := (i 0).isLt
  have h1 : (i 1).val < 2 := (i 1).isLt
  intro a
  match a with
  | ⟨0, _⟩ =>
    show win6_5.index t6_0 (0 : Fin 2) * 2048 ≤ (i 0).val ∧ (i 0).val < win6_5.index t6_0 (0 : Fin 2) * 2048 + 2048
    omega
  | ⟨1, _⟩ =>
    show win6_5.index t6_0 (1 : Fin 2) * 2 ≤ (i 1).val ∧ (i 1).val < win6_5.index t6_0 (1 : Fin 2) * 2 + 2
    omega

/-- The output array after the region is the head of the five arrays as the region finds them. -/
theorem head6 (c : Dev nD) :
    (dat6 (F := Ideal) V c).arrAt 5 cfg6.N = (head (g := 2048) (f := 64) (h := 64) (o := 2) (V c main_v89) (V c main_arg9) (V c main_v90) (V c main_arg11) (V c main_v91) : S2048x2.Idx → EReal) :=
  (dat6 (F := Ideal) V c).arrAt_eq_of_cover 5 _ (fun t _ => written6 V c t) covered6

end Cert.KernelIdeal.RegionValue

end
-- ==== Proof.RefLayers.lean ====
/-
  The reference's dense steps as the layer functions.

  Each `dot_general` of the reference with plain dimension numbers is the matrix product `rowsByCols` of its operands;
  each "add the bias, spread over the rows, then take the maximum with zero" is `biasRelu` of the aggregate and the bias
  row; the classifier's last five operations are `head`. The bias enters the reference as a vector spread first to a
  `1 × c` row and then over the rows; here it is any `1 × c` row `b` with `b[0,q]` the vector's entry `q`.
-/
import proofs.«122198_j40690520163162_1_alg».proof.Proof.RefReadP
import proofs.«122198_j40690520163162_1_alg».proof.Proof.Spec

set_option maxRecDepth 16384

noncomputable section

namespace Cert.ReferenceIdeal.Layers

open Idealize.ShloMosaic Idealize.ShloMosaic.TcCoe Idealize.SL.Sem Idealize.ShloMosaic.ValueIdx
open Cert.ReferenceIdeal Cert.ReferenceIdeal.Gen Cert.ReferenceIdeal.ReadP Cert.Lib.PlainDot Cert.Spec

/-- The reference's `dot_general` here is the matrix product of its operands. -/
theorem lin_first (x0 : (⟨S50000x32, .f32⟩ : BufTy).Contents (Elt Ideal)) (x3 : (⟨S32x64, .f32⟩ : BufTy).Contents (Elt Ideal)) :
    val_main_v30 (F := Ideal) x0 x3 = (rowsByCols (M := 50000) (K := 32) (N := 64) x0 x3 : S50000x64.Idx → EReal) := by
  unfold val_main_v30
  simp only [Host.dotGeneral]
  exact dotGeneral_eq dot_S50000x32_S32x64_S50000x64_1_0_0_1_n_n rfl _ _ _ _

/-- The reference's bias addition and rectification here is `biasRelu` of the incoming array and the bias row. -/
theorem relu_first (x0 : (⟨S50000x32, .f32⟩ : BufTy).Contents (Elt Ideal)) (x1 : (⟨S2x800000, .i32⟩ : BufTy).Contents (Elt Ideal)) (x3 : (⟨S32x64, .f32⟩ : BufTy).Contents (Elt Ideal)) (x4 : (⟨S64, .f32⟩ : BufTy).Contents (Elt Ideal)) (b : S1x64.Idx → EReal)
    (hb : ∀ q : Fin 64, b (ix2 (0 : Fin 1) q) = x4 (ix1 q)) :
    val_main_v47 (F := Ideal) x0 x1 x3 x4 = (biasRelu (n := 50000) (c := 64) (val_main_v43 (F := Ideal) x0 x1 x3) b : S50000x64.Idx → EReal) := by
  funext i
  obtain ⟨p, q, rfl⟩ : ∃ (p : Fin 50000) (q : Fin 64), i = ix2 p q := ⟨i 0, i 1, eq_ix2 i⟩
  rw [val_main_v47_apply, val_main_v46_apply, val_main_v45_apply, val_main_v44_apply, val_main_call1_v0_apply, val_main_call1_cst_apply,
    biasRelu_apply]
  generalize val_main_v43 (F := Ideal) x0 x1 x3 (ix2 p q) = a
  have e : x4 (idx_main_v44 (idx_main_v45 (ix2 p q))) = b (ix2 (0 : Fin 1) q) := by
    rw [hb q]; exact congrArg x4 (funext fun d => match d with | ⟨0, _⟩ => rfl)
  rw [e]
  show max (a + b (ix2 (0 : Fin 1) q)) (Ideal.ofBits .f32 0x00000000#32) = max (a + b (ix2 (0 : Fin 1) q)) 0
  rw [Ideal.ofBits_zero_f32]

/-- The reference's `dot_general` here is the matrix product of its operands. -/
theorem lin_second (x0 : (⟨S50000x32, .f32⟩ : BufTy).Contents (Elt Ideal)) (x1 : (⟨S2x800000, .i32⟩ : BufTy).Contents (Elt Ideal)) (x3 : (⟨S32x64, .f32⟩ : BufTy).Contents (Elt Ideal)) (x4 : (⟨S64, .f32⟩ : BufTy).Contents (Elt Ideal)) (x5 : (⟨S64x64, .f32⟩ : BufTy).Contents (Elt Ideal)) :
    val_main_v48 (F := Ideal) x0 x1 x3 x4 x5 = (rowsByCols (M := 50000) (K := 64) (N := 64) (val_main_v47 (F := Ideal) x0 x1 x3 x4) x5 : S50000x64.Idx → EReal) := by
  unfold val_main_v48
  simp only [Host.dotGeneral]
  exact dotGeneral_eq dot_S50000x64_S64x64_S50000x64_1_0_0_1_n_n rfl _ _ _ _

/-- The reference's bias addition and rectification here is `biasRelu` of the incoming array and the bias row. -/
theorem relu_second (x0 : (⟨S50000x32, .f32⟩ : BufTy).Contents (Elt Ideal)) (x1 : (⟨S2x800000, .i32⟩ : BufTy).Contents (Elt Ideal)) (x3 : (⟨S32x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (b : S1x64.Idx → EReal)
    (hb : ∀ q : Fin 64, b (ix2 (0 : Fin 1) q) = x6 (ix1 q)) :
    val_main_v65 (F := Ideal) x0 x1 x3 x4 x5 x6 = (biasRelu (n := 50000) (c := 64) (val_main_v61 (F := Ideal) x0 x1 x3 x4 x5) b : S50000x64.Idx → EReal) := by
  funext i
  obtain ⟨p, q, rfl⟩ : ∃ (p : Fin 50000) (q : Fin 64), i = ix2 p q := ⟨i 0, i 1, eq_ix2 i⟩
  rw [val_main_v65_apply, val_main_v64_apply, val_main_v63_apply, val_main_v62_apply, val_main_call2_v0_apply, val_main_call2_cst_apply,
    biasRelu_apply]
  generalize val_main_v61 (F := Ideal) x0 x1 x3 x4 x5 (ix2 p q) = a
  have e : x6 (idx_main_v62 (idx_main_v63 (ix2 p q))) = b (ix2 (0 : Fin 1) q) := by
    rw [hb q]; exact congrArg x6 (funext fun d => match d with | ⟨0, _⟩ => rfl)
  rw [e]
  show max (a + b (ix2 (0 : Fin 1) q)) (Ideal.ofBits .f32 0x00000000#32) = max (a + b (ix2 (0 : Fin 1) q)) 0
  rw [Ideal.ofBits_zero_f32]

/-- The reference's `dot_general` here is the matrix product of its operands. -/
theorem lin_third (x0 : (⟨S50000x32, .f32⟩ : BufTy).Contents (Elt Ideal)) (x1 : (⟨S2x800000, .i32⟩ : BufTy).Contents (Elt Ideal)) (x3 : (⟨S32x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) :
    val_main_v66 (F := Ideal) x0 x1 x3 x4 x5 x6 x7 = (rowsByCols (M := 50000) (K := 64) (N := 64) (val_main_v65 (F := Ideal) x0 x1 x3 x4 x5 x6) x7 : S50000x64.Idx → EReal) := by
  unfold val_main_v66
  simp only [Host.dotGeneral]
  exact dotGeneral_eq dot_S50000x64_S64x64_S50000x64_1_0_0_1_n_n rfl _ _ _ _

/-- The reference's bias addition and rectification here is `biasRelu` of the incoming array and the bias row. -/
theorem relu_third (x0 : (⟨S50000x32, .f32⟩ : BufTy).Contents (Elt Ideal)) (x1 : (⟨S2x800000, .i32⟩ : BufTy).Contents (Elt Ideal)) (x3 : (⟨S32x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (b : S1x64.Idx → EReal)
    (hb : ∀ q : Fin 64, b (ix2 (0 : Fin 1) q) = x8 (ix1 q)) :
    val_main_v83 (F := Ideal) x0 x1 x3 x4 x5 x6 x7 x8 = (biasRelu (n := 50000) (c := 64) (val_main_v79 (F := Ideal) x0 x1 x3 x4 x5 x6 x7) b : S50000x64.Idx → EReal) := by
  funext i
  obtain ⟨p, q, rfl⟩ : ∃ (p : Fin 50000) (q : Fin 64), i = ix2 p q := ⟨i 0, i 1, eq_ix2 i⟩
  rw [val_main_v83_apply, val_main_v82_apply, val_main_v81_apply, val_main_v80_apply, val_main_call3_v0_apply, val_main_call3_cst_apply,
    biasRelu_apply]
  generalize val_main_v79 (F := Ideal) x0 x1 x3 x4 x5 x6 x7 (ix2 p q) = a
  have e : x8 (idx_main_v80 (idx_main_v81 (ix2 p q))) = b (ix2 (0 : Fin 1) q) := by
    rw [hb q]; exact congrArg x8 (funext fun d => match d with | ⟨0, _⟩ => rfl)
  rw [e]
  show max (a + b (ix2 (0 : Fin 1) q)) (Ideal.ofBits .f32 0x00000000#32) = max (a + b (ix2 (0 : Fin 1) q)) 0
  rw [Ideal.ofBits_zero_f32]

/-- The reference's `dot_general` here is the matrix product of its operands. -/
theorem lin_head_hidden (x0 : (⟨S50000x32, .f32⟩ : BufTy).Contents (Elt Ideal)) (x1 : (⟨S2x800000, .i32⟩ : BufTy).Contents (Elt Ideal)) (x2 : (⟨S50000, .i32⟩ : BufTy).Contents (Elt Ideal)) (x3 : (⟨S32x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) :
    val_main_v96 (F := Ideal) x0 x1 x2 x3 x4 x5 x6 x7 x8 x9 = (rowsByCols (M := 2048) (K := 64) (N := 64) (val_main_v95 (F := Ideal) x0 x1 x2 x3 x4 x5 x6 x7 x8) x9 : S2048x64.Idx → EReal) := by
  unfold val_main_v96
  simp only [Host.dotGeneral]
  exact dotGeneral_eq dot_S2048x64_S64x64_S2048x64_1_0_0_1_n_n rfl _ _ _ _

/-- The reference's bias addition and rectification here is `biasRelu` of the incoming array and the bias row. -/
theorem relu_head (x0 : (⟨S50000x32, .f32⟩ : BufTy).Contents (Elt Ideal)) (x1 : (⟨S2x800000, .i32⟩ : BufTy).Contents (Elt Ideal)) (x2 : (⟨S50000, .i32⟩ : BufTy).Contents (Elt Ideal)) (x3 : (⟨S32x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (b : S1x64.Idx → EReal)
    (hb : ∀ q : Fin 64, b (ix2 (0 : Fin 1) q) = x10 (ix1 q)) :
    val_main_v100 (F := Ideal) x0 x1 x2 x3 x4 x5 x6 x7 x8 x9 x10 = (biasRelu (n := 2048) (c := 64) (val_main_v96 (F := Ideal) x0 x1 x2 x3 x4 x5 x6 x7 x8 x9) b : S2048x64.Idx → EReal) := by
  funext i
  obtain ⟨p, q, rfl⟩ : ∃ (p : Fin 2048) (q : Fin 64), i = ix2 p q := ⟨i 0, i 1, eq_ix2 i⟩
  rw [val_main_v100_apply, val_main_v99_apply, val_main_v98_apply, val_main_v97_apply, val_main_call4_v0_apply, val_main_call4_cst_apply,
    biasRelu_apply]
  generalize val_main_v96 (F := Ideal) x0 x1 x2 x3 x4 x5 x6 x7 x8 x9 (ix2 p q) = a
  have e : x10 (idx_main_v97 (idx_main_v98 (ix2 p q))) = b (ix2 (0 : Fin 1) q) := by
    rw [hb q]; exact congrArg x10 (funext fun d => match d with | ⟨0, _⟩ => rfl)
  rw [e]
  show max (a + b (ix2 (0 : Fin 1) q)) (Ideal.ofBits .f32 0x00000000#32) = max (a + b (ix2 (0 : Fin 1) q)) 0
  rw [Ideal.ofBits_zero_f32]

/-- The reference's `dot_general` here is the matrix product of its operands. -/
theorem lin_head_out (x0 : (⟨S50000x32, .f32⟩ : BufTy).Contents (Elt Ideal)) (x1 : (⟨S2x800000, .i32⟩ : BufTy).Contents (Elt Ideal)) (x2 : (⟨S50000, .i32⟩ : BufTy).Contents (Elt Ideal)) (x3 : (⟨S32x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x2, .f32⟩ : BufTy).Contents (Elt Ideal)) :
    val_main_v101 (F := Ideal) x0 x1 x2 x3 x4 x5 x6 x7 x8 x9 x10 x11 = (rowsByCols (M := 2048) (K := 64) (N := 2) (val_main_v100 (F := Ideal) x0 x1 x2 x3 x4 x5 x6 x7 x8 x9 x10) x11 : S2048x2.Idx → EReal) := by
  unfold val_main_v101
  simp only [Host.dotGeneral]
  exact dotGeneral_eq dot_S2048x64_S64x2_S2048x2_1_0_0_1_n_n rfl _ _ _ _

/-- The reference's last five operations on the pooled features are the classifier head. -/
theorem head_ref (x0 : (⟨S50000x32, .f32⟩ : BufTy).Contents (Elt Ideal)) (x1 : (⟨S2x800000, .i32⟩ : BufTy).Contents (Elt Ideal)) (x2 : (⟨S50000, .i32⟩ : BufTy).Contents (Elt Ideal)) (x3 : (⟨S32x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x2, .f32⟩ : BufTy).Contents (Elt Ideal)) (x12 : (⟨S2, .f32⟩ : BufTy).Contents (Elt Ideal)) (b₁ : S1x64.Idx → EReal) (b₂ : S1x2.Idx → EReal)
    (hb₁ : ∀ q : Fin 64, b₁ (ix2 (0 : Fin 1) q) = x10 (ix1 q)) (hb₂ : ∀ q : Fin 2, b₂ (ix2 (0 : Fin 1) q) = x12 (ix1 q)) :
    val_main_v104 (F := Ideal) x0 x1 x2 x3 x4 x5 x6 x7 x8 x9 x10 x11 x12
      = (head (g := 2048) (f := 64) (h := 64) (o := 2) (val_main_v95 (F := Ideal) x0 x1 x2 x3 x4 x5 x6 x7 x8) x9 b₁ x11 b₂ : S2048x2.Idx → EReal) := by
  funext i
  obtain ⟨p, q, rfl⟩ : ∃ (p : Fin 2048) (q : Fin 2), i = ix2 p q := ⟨i 0, i 1, eq_ix2 i⟩
  rw [val_main_v104_apply, val_main_v103_apply, val_main_v102_apply, lin_head_out, relu_head x0 x1 x2 x3 x4 x5 x6 x7 x8 x9 x10 b₁ hb₁, lin_head_hidden]
  unfold head
  rw [addRow_apply]
  generalize rowsByCols (M := 2048) (K := 64) (N := 2) _ x11 (ix2 p q) = a
  have e : x12 (idx_main_v102 (idx_main_v103 (ix2 p q))) = b₂ (ix2 (0 : Fin 1) q) := by
    rw [hb₂ q]; exact congrArg x12 (funext fun d => match d with | ⟨0, _⟩ => rfl)
  rw [e]
  rfl

end Cert.ReferenceIdeal.Layers

end
-- ==== Proof.Chain.lean ====
/-
  The idealized kernel's result is the reference's result, boundary by boundary.

  Walking @main's fourteen segments forward from the launch memory: after the first three stretches the edge sources,
  the edge targets and the edge weights hold the reference's values of the edge-list argument; a linear region leaves
  the matrix product of its two arrays, which is the reference's `dot_general`; the stretch after it leaves the
  reference's aggregate and the bias as a row; a bias region leaves `biasRelu` of the two, which is the reference's
  rectified sum; and so on through the three layers, the mean over each graph, and the classifier head. At every
  boundary the buffer just written holds the reference's stage value of the arguments' launch contents.
-/
import proofs.«122198_j40690520163162_1_alg».proof.Proof.Carry
import proofs.«122198_j40690520163162_1_alg».proof.Proof.HostStages
import proofs.«122198_j40690520163162_1_alg».proof.Proof.RegionLin
import proofs.«122198_j40690520163162_1_alg».proof.Proof.RegionBias
import proofs.«122198_j40690520163162_1_alg».proof.Proof.RegionHead
import proofs.«122198_j40690520163162_1_alg».proof.Proof.RefLayers

set_option maxRecDepth 16384

noncomputable section

namespace Cert.KernelIdeal.Chain

open Idealize.ShloMosaic Idealize.ShloMosaic.TcCoe Idealize.SL.Sem Idealize.ShloMosaic.ValueIdx
open Cert.KernelIdeal Cert.KernelIdeal.Gen Cert.KernelIdeal.Carry Cert.KernelIdeal.HostStages Cert.KernelIdeal.RegionValue
open Cert.ReferenceIdeal.ReadP Cert.ReferenceIdeal.Layers Cert.Lib.PlainDot Cert.Spec

variable (m : (ℓ : Loc nD τ sig) → Buf (Elt Ideal) ℓ) (ρ : Dev nD → PrngReg) (c : Dev nD)

/-! ## Before the first region: the edge arrays -/

theorem src_at1 : W1 m ρ c (Proc.devRef .tc main_v3) = val_main_v3 (F := Ideal) (m ((c : Thread nD τ).loc main_arg1)) :=
  edge_sources (W0 m ρ c)
theorem dst_at1 : W1 m ρ c (Proc.devRef .tc main_v6) = val_main_v6 (F := Ideal) (m ((c : Thread nD τ).loc main_arg1)) :=
  edge_targets (W0 m ρ c)
theorem scale_at2 : W2 m ρ c (Proc.devRef .tc main_v14) = val_main_v14 (F := Ideal) (m ((c : Thread nD τ).loc main_arg1)) :=
  node_scale (W1 m ρ c) _ (degree_positive (W0 m ρ c)) (degree_rsqrt (W0 m ρ c)) (zero_scalar (W0 m ρ c))
theorem src_at3 : W3 m ρ c (Proc.devRef .tc main_v3) = val_main_v3 (F := Ideal) (m ((c : Thread nD τ).loc main_arg1)) :=
  (W3_of m ρ c main_v3 (by decide)).trans ((W2_of m ρ c main_v3 (by decide)).trans (src_at1 m ρ c))
theorem dst_at3 : W3 m ρ c (Proc.devRef .tc main_v6) = val_main_v6 (F := Ideal) (m ((c : Thread nD τ).loc main_arg1)) :=
  (W3_of m ρ c main_v6 (by decide)).trans ((W2_of m ρ c main_v6 (by decide)).trans (dst_at1 m ρ c))
theorem weight_at3 : W3 m ρ c (Proc.devRef .tc main_v29) = val_main_v29 (F := Ideal) (m ((c : Thread nD τ).loc main_arg1)) :=
  edge_weights (W2 m ρ c) _ ((W2_of m ρ c main_v3 (by decide)).trans (src_at1 m ρ c))
    ((W2_of m ρ c main_v6 (by decide)).trans (dst_at1 m ρ c)) (scale_at2 m ρ c)

/-! ## The first layer -/

theorem lin_at4 : W4 m ρ c (Proc.devRef .tc main_v30) = val_main_v30 (F := Ideal) (m ((c : Thread nD τ).loc main_arg0)) (m ((c : Thread nD τ).loc main_arg3)) :=
  (W4_arr m ρ c 2).trans ((lin0 (V3 m ρ) c).trans
    ((congrArg₂ (rowsByCols (M := 50000) (K := 32) (N := 64)) (W3_main_arg0 m ρ c) (W3_main_arg3 m ρ c)).trans
      (lin_first _ _).symm))

theorem agg_at5 : W5 m ρ c (Proc.devRef .tc main_v43) = val_main_v43 (F := Ideal) (m ((c : Thread nD τ).loc main_arg0)) (m ((c : Thread nD τ).loc main_arg1)) (m ((c : Thread nD τ).loc main_arg3)) :=
  agg_first (W4 m ρ c) _ _ _ (lin_at4 m ρ c) ((W4_main_v3 m ρ c).trans (src_at3 m ρ c))
    ((W4_main_v6 m ρ c).trans (dst_at3 m ρ c)) ((W4_main_v29 m ρ c).trans (weight_at3 m ρ c))

theorem relu_at6 : W6 m ρ c (Proc.devRef .tc main_v45) = val_main_v47 (F := Ideal) (m ((c : Thread nD τ).loc main_arg0)) (m ((c : Thread nD τ).loc main_arg1)) (m ((c : Thread nD τ).loc main_arg3)) (m ((c : Thread nD τ).loc main_arg4)) :=
  (W6_arr m ρ c 2).trans ((bias1 (V5 m ρ) c).trans
    ((congrArg (fun a => biasRelu (n := 50000) (c := 64) a (V5 m ρ c main_v44)) (agg_at5 m ρ c)).trans
      (relu_first _ _ _ _ _ fun q => (row_first (W4 m ρ c) q).trans (congrFun (W4_main_arg4 m ρ c) (ix1 q))).symm))

/-! ## The second layer -/

theorem lin_at7 : W7 m ρ c (Proc.devRef .tc main_v46) = val_main_v48 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (W7_arr m ρ c 2).trans ((lin2 (V6 m ρ) c).trans
    ((congrArg₂ (rowsByCols (M := 50000) (K := 64) (N := 64)) (relu_at6 m ρ c) (W6_main_arg5 m ρ c)).trans
      (lin_second _ _ _ _ _).symm))

theorem agg_at8 : W8 m ρ c (Proc.devRef .tc main_v59) = val_main_v61 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  agg_second (W7 m ρ c) _ _ _ _ _ (lin_at7 m ρ c) ((W7_main_v3 m ρ c).trans (src_at3 m ρ c))
    ((W7_main_v6 m ρ c).trans (dst_at3 m ρ c)) ((W7_main_v29 m ρ c).trans (weight_at3 m ρ c))

theorem relu_at9 : W9 m ρ c (Proc.devRef .tc main_v61) = val_main_v65 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W9_arr m ρ c 2).trans ((bias3 (V8 m ρ) c).trans
    ((congrArg (fun a => biasRelu (n := 50000) (c := 64) a (V8 m ρ c main_v60)) (agg_at8 m ρ c)).trans
      (relu_second _ _ _ _ _ _ _ fun q => (row_second (W7 m ρ c) q).trans (congrFun (W7_main_arg6 m ρ c) (ix1 q))).symm))

/-! ## The third layer -/

theorem lin_at10 : W10 m ρ c (Proc.devRef .tc main_v62) = val_main_v66 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  (W10_arr m ρ c 2).trans ((lin4 (V9 m ρ) c).trans
    ((congrArg₂ (rowsByCols (M := 50000) (K := 64) (N := 64)) (relu_at9 m ρ c) (W9_main_arg7 m ρ c)).trans
      (lin_third _ _ _ _ _ _ _).symm))

theorem agg_at11 : W11 m ρ c (Proc.devRef .tc main_v75) = val_main_v79 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  agg_third (W10 m ρ c) _ _ _ _ _ _ _ (lin_at10 m ρ c) ((W10_main_v3 m ρ c).trans (src_at3 m ρ c))
    ((W10_main_v6 m ρ c).trans (dst_at3 m ρ c)) ((W10_main_v29 m ρ c).trans (weight_at3 m ρ c))

theorem relu_at12 : W12 m ρ c (Proc.devRef .tc main_v77) = val_main_v83 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W12_arr m ρ c 2).trans ((bias5 (V11 m ρ) c).trans
    ((congrArg (fun a => biasRelu (n := 50000) (c := 64) a (V11 m ρ c main_v76)) (agg_at11 m ρ c)).trans
      (relu_third _ _ _ _ _ _ _ _ _ fun q => (row_third (W10 m ρ c) q).trans (congrFun (W10_main_arg8 m ρ c) (ix1 q))).symm))

/-! ## The mean over each graph and the classifier head -/

theorem pooled_at13 : W13 m ρ c (Proc.devRef .tc main_v89) = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  graph_mean (W12 m ρ c) _ _ _ _ _ _ _ _ _ (relu_at12 m ρ c) (W12_main_arg2 m ρ c)

/-- The result buffer after the last region holds the reference's result of the arguments' launch contents. -/
theorem result_at14 : W14 m ρ c (Proc.devRef .tc main_v92) = val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (W14_arr m ρ c 5).trans ((head6 (V13 m ρ) c).trans
    ((congrArg₂ (fun p w => head (g := 2048) (f := 64) (h := 64) (o := 2) p w (V13 m ρ c main_v90) (V13 m ρ c main_arg11) (V13 m ρ c main_v91))
        (pooled_at13 m ρ c) (W13_main_arg9 m ρ c)).trans
      ((congrArg (fun w => head (g := 2048) (f := 64) (h := 64) (o := 2) _ _ (V13 m ρ c main_v90) w (V13 m ρ c main_v91)) (W13_main_arg11 m ρ c)).trans
        (head_ref _ _ _ _ _ _ _ _ _ _ _ _ _ _ _
          (fun q => (row_hidden (W12 m ρ c) q).trans (congrFun (W12_main_arg10 m ρ c) (ix1 q)))
          (fun q => (row_out (W12 m ρ c) q).trans (congrFun (W12_main_arg12 m ρ c) (ix1 q)))).symm)))

end Cert.KernelIdeal.Chain

end
-- ==== Proof.lean ====
/-
  The certificate of the graph-convolution network: the kernel, its idealization and the reference.

  The network is three graph-convolution layers `relu (Â (h W) + b)` — `Â` the adjacency with self loops, normalised
  symmetrically by the degrees —, the mean of the node features over each graph, and a two-layer classifier head. The
  kernel computes the dense steps (the products `h W`, the bias additions with rectification, the head) in seven
  pipelined regions over blocks of 5000 rows and leaves the edge-indexed steps (gathering rows at the edge sources,
  scaling, adding into the rows at the edge targets, the mean over graphs) to the same host operations the reference uses.
  On the extended reals a change of float format is the identity and a product into a zero accumulator is the plain
  sum of products, so block by block the regions compute what the reference's whole-array operations compute, and
  the two results are the same function of the arguments: no algebraic law beyond that is used, and the
  precondition (finite inputs) is not needed.

  The three frames are the programs' runs with the result dropped; the idealization rewrote nothing, so `preserves` is
  trivial; `algebraic` puts the kernel's run (the result buffer read through the segment boundaries, Proof/Chain.lean)
  beside the reference's run (its composed term read as its last stage), from memories that agree on the arguments.
-/
import proofs.«122198_j40690520163162_1_alg».proof.Defs
import proofs.«122198_j40690520163162_1_alg».proof.Proof.Gen.Kernel
import proofs.«122198_j40690520163162_1_alg».proof.Proof.Gen.Kernel.Frame
import proofs.«122198_j40690520163162_1_alg».proof.Proof.Gen.KernelIdeal
import proofs.«122198_j40690520163162_1_alg».proof.Proof.Gen.KernelIdeal.Frame
import proofs.«122198_j40690520163162_1_alg».proof.Proof.Gen.ReferenceIdeal
import proofs.«122198_j40690520163162_1_alg».proof.Proof.Gen.Pre_finite_inputs
import proofs.«122198_j40690520163162_1_alg».proof.Proof.RefRunP
import proofs.«122198_j40690520163162_1_alg».proof.Proof.RefReadP
import proofs.«122198_j40690520163162_1_alg».proof.Proof.KernelRun
import proofs.«122198_j40690520163162_1_alg».proof.Proof.Chain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the result at the reference's last stage of the (agreeing) arguments. -/
theorem algebraic : Cert.algebraic_KernelIdeal_ReferenceIdeal := by
  intro m ρ m' ρ' _ hagree
  refine ⟨fun c => Cert.ReferenceIdeal.ReadP.val_main_v104 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Chain.result_at14 m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v104_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
